-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S2x1000000 : Shape := ⟨2, ![2, 1000000]⟩
abbrev S1000000x32 : Shape := ⟨2, ![1000000, 32]⟩
abbrev S20000x1 : Shape := ⟨2, ![20000, 1]⟩
abbrev S160x64 : Shape := ⟨2, ![160, 64]⟩
abbrev S64 : Shape := ⟨1, ![64]⟩
abbrev S128x64 : Shape := ⟨2, ![128, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S1000000x32 : S_.BroadcastsInDim S1000000x32 (![] : Fin 0 → Fin S1000000x32.rank)
  reducesTo_S1000000x32_S_d0_1 : S1000000x32.ReducesTo [0, 1] S_
  bcast_S_S20000x1 : S_.BroadcastsInDim S20000x1 (![] : Fin 0 → Fin S20000x1.rank)
  reducesTo_S20000x1_S_d0_1 : S20000x1.ReducesTo [0, 1] S_
  bcast_S_S160x64 : S_.BroadcastsInDim S160x64 (![] : Fin 0 → Fin S160x64.rank)
  reducesTo_S160x64_S_d0_1 : S160x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S160x64 .f32) (main_arg6 : FVec F S64 .f32) (main_arg7 : FVec F S128x64 .f32) (main_arg8 : FVec F S64 .f32) (main_v13 : IVec S_ 1) (main_v16 : IVec S20000x1 1) : IVec S_ 1 :=
  let main_c_5 : IVec S_ 1 := constantI S_ 1 1#1
  let main_v17 : IVec S_ 1 := (fun x v => Host.reduce IntOp.andi x v reducesTo_S20000x1_S_d0_1 h_S_) main_v16 main_c_5
  let main_v18 : IVec S_ 1 := andi main_v13 main_v17
  let main_v19 : FVec F S160x64 .f32 := Host.absf main_arg5
  let main_cst_6 : FVec F S_ .f32 := constant S_ .f32 0x7F800000#32
  let main_v20 : FVec F S160x64 .f32 := broadcastInDim S160x64 ![] bcast_S_S160x64 main_cst_6
  let main_v21 : IVec S160x64 1 := cmpf .olt main_v19 main_v20
  let main_c_7 : IVec S_ 1 := constantI S_ 1 1#1
  let main_v22 : IVec S_ 1 := (fun x v => Host.reduce IntOp.andi x v reducesTo_S160x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : FVec F S20000x128 .f32) (main_arg2 : IVec S2x1000000 32) (main_arg3 : FVec F S1000000x32 .f32) (main_arg4 : FVec F S20000x1 .f32) (main_arg5 : FVec F S160x64 .f32) (main_arg6 : FVec F S64 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S1000000x32 .f32 := Host.absf main_arg3
  let main_cst_2 : FVec F S_ .f32 := constant S_ .f32 0x7F800000#32
  let main_v10 : FVec F S1000000x32 .f32 := broadcastInDim S1000000x32 ![] bcast_S_S1000000x32 main_cst_2
  let main_v11 : IVec S1000000x32 1 := cmpf .olt main_v9 main_v10
  let main_c_3 : IVec S_ 1 := constantI S_ 1 1#1
  let main_v12 : IVec S_ 1 := (fun x v => Host.reduce IntOp.andi x v reducesTo_S1000000x32_S_d0_1 h_S_) main_v11 main_c_3
  let main_v13 : IVec S_ 1 := andi main_v8 main_v12
  let main_v14 : FVec F S20000x1 .f32 := Host.absf main_arg4
  let main_cst_4 : FVec F S_ .f32 := constant S_ .f32 0x7F800000#32
  let main_v15 : FVec F S20000x1 .f32 := broadcastInDim S20000x1 ![] bcast_S_S20000x1 main_cst_4
  let main_v16 : IVec S20000x1 1 := cmpf .olt main_v14 main_v15
  fn_part1 (F := F) main_arg5 main_arg6 main_arg7 main_arg8 main_v13 main_v16
-- ==== Kernel.lean ====
abbrev S100000x128 : Shape := ⟨2, ![100000, 128]⟩
abbrev S20000x128 : Shape := ⟨2, ![20000, 128]⟩
abbrev S2x1000000 : Shape := ⟨2, ![2, 1000000]⟩
abbrev S1000000x32 : Shape := ⟨2, ![1000000, 32]⟩
abbrev S20000x1 : Shape := ⟨2, ![20000, 1]⟩
abbrev S160x64 : Shape := ⟨2, ![160, 64]⟩
abbrev S64 : Shape := ⟨1, ![64]⟩
abbrev S128x64 : Shape := ⟨2, ![128, 64]⟩
abbrev S1x1000000 : Shape := ⟨2, ![1, 1000000]⟩
abbrev S1000000 : Shape := ⟨1, ![1000000]⟩
abbrev S32x64 : Shape := ⟨2, ![32, 64]⟩
abbrev S100000x64 : Shape := ⟨2, ![100000, 64]⟩
abbrev S20000x64 : Shape := ⟨2, ![20000, 64]⟩
abbrev S1x64 : Shape := ⟨2, ![1, 64]⟩
abbrev S_ : Shape := ⟨0, ![]⟩
abbrev S20000x65 : Shape := ⟨2, ![20000, 65]⟩
abbrev S1000000x1 : Shape := ⟨2, ![1000000, 1]⟩
abbrev S1000000x64 : Shape := ⟨2, ![1000000, 64]⟩
abbrev S1000000x65 : Shape := ⟨2, ![1000000, 65]⟩
abbrev S4000x64 : Shape := ⟨2, ![4000, 64]⟩
abbrev S4000x32 : Shape := ⟨2, ![4000, 32]⟩
abbrev S4000x65 : Shape := ⟨2, ![4000, 65]⟩
abbrev S4000x1 : Shape := ⟨2, ![4000, 1]⟩
abbrev S4000 : Shape := ⟨1, ![4000]⟩

abbrev nBuf : Space → Nat
  | .hbm => 55
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S2x1000000, .i32⟩
  | .hbm, ⟨3, _⟩ => ⟨S1000000x32, .f32⟩
  | .hbm, ⟨4, _⟩ => ⟨S20000x1, .f32⟩
  | .hbm, ⟨5, _⟩ => ⟨S160x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S128x64, .f32⟩
  | .hbm, ⟨14, _⟩ => ⟨S32x64, .f32⟩
  | .hbm, ⟨15, _⟩ => ⟨S100000x64, .f32⟩
  | .hbm, ⟨16, _⟩ => ⟨S100000x64, .bf16⟩
  | .hbm, ⟨17, _⟩ => ⟨S20000x64, .f32⟩
  | .hbm, ⟨18, _⟩ => ⟨S1x64, .f32⟩
  | .hbm, ⟨19, _⟩ => ⟨S20000x64, .f32⟩
  | .hbm, ⟨20, _⟩ => ⟨S20000x64, .f32⟩
  | .hbm, ⟨21, _⟩ => ⟨S_, .f32⟩
  | .hbm, ⟨22, _⟩ => ⟨S20000x64, .f32⟩
  | .hbm, ⟨23, _⟩ => ⟨S20000x64, .f32⟩
  | .hbm, ⟨24, _⟩ => ⟨S20000x64, .f32⟩
  | .hbm, ⟨25, _⟩ => ⟨S20000x64, .f32⟩
  | .hbm, ⟨26, _⟩ => ⟨S20000x64, .i1⟩
  | .hbm, ⟨27, _⟩ => ⟨S20000x64, .f32⟩
  | .hbm, ⟨28, _⟩ => ⟨S20000x64, .f32⟩
  | .hbm, ⟨29, _⟩ => ⟨S20000x64, .f32⟩
  | .hbm, ⟨30, _⟩ => ⟨S20000x64, .f32⟩
  | .hbm, ⟨31, _⟩ => ⟨S20000x64, .f32⟩
  | .hbm, ⟨32, _⟩ => ⟨S20000x64, .f32⟩
  | .hbm, ⟨33, _⟩ => ⟨S20000x64, .f32⟩
  | .hbm, ⟨34, _⟩ => ⟨S20000x64, .f32⟩
  | .hbm, ⟨35, _⟩ => ⟨S20000x65, .f32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000x64, .bf16⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S1000000x1, .i32⟩
  | .hbm, ⟨53, _⟩ => ⟨S1000000x65, .f32⟩
  | .hbm, ⟨54, _⟩ => ⟨S1000000x1, .f32⟩
  | .local _ .vmem, ⟨0, _⟩ => ⟨S4000x64, .bf16⟩
  | .local _ .vmem, ⟨1, _⟩ => ⟨S4000x64, .bf16⟩
  | .local _ .vmem, ⟨2, _⟩ => ⟨S4000x32, .f32⟩
  | .local _ .vmem, ⟨3, _⟩ => ⟨S4000x32, .f32⟩
  | .local _ .vmem, ⟨4, _⟩ => ⟨S4000x65, .f32⟩
  | .local _ .vmem, ⟨5, _⟩ => ⟨S4000x65, .f32⟩
  | .local _ .vmem, ⟨6, _⟩ => ⟨S32x64, .f32⟩
  | .local _ .vmem, ⟨7, _⟩ => ⟨S64, .f32⟩
  | .local _ .vmem, ⟨8, _⟩ => ⟨S4000x1, .f32⟩
  | .local _ .vmem, ⟨9, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v12 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_0 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_1 : Ref sig .tc := ⟨.hbm, 45, rfl⟩
abbrev main_v21 : Ref sig .tc := ⟨.hbm, 46, rfl⟩
abbrev main_v22 : Ref sig .tc := ⟨.hbm, 47, rfl⟩
abbrev main_c_2 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x65 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  slices_S160x64_S128x64_0_0 : S160x64.Slices ![0, 0] S128x64
  slices_S160x64_S32x64_128_0 : S160x64.Slices ![128, 0] S32x64
  bitsLt_bf16_f32 : FTy.bits .bf16 < FTy.bits .f32
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S_S20000x64 : S_.BroadcastsInDim S20000x64 (![] : Fin 0 → Fin S20000x64.rank)
  concatenates_S20000x64_S20000x1_S20000x65_d1 : Shape.Concatenates [S20000x64, S20000x1] S20000x65 1
  bcast_S_S1000000 : S_.BroadcastsInDim S1000000 (![] : Fin 0 → Fin S1000000.rank)
  bcast_S1000000_S1000000x1_0 : S1000000.BroadcastsInDim S1000000x1 (![0] : Fin 1 → Fin S1000000x1.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x32_S4000x32_0_0 : ∀ a, (![0, 0] : Fin 2 → Nat) a + S4000x32.size a ≤ S4000x32.size a
  h_S4000x32 : 0 < S4000x32.numel
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x65_S4000x64_0_0 : ∀ a, (![0, 0] : Fin 2 → Nat) a + S4000x64.size a ≤ S4000x65.size a
  inb_S4000x65_S4000x1_0_64 : ∀ a, (![0, 64] : Fin 2 → Nat) a + S4000x1.size a ≤ S4000x65.size a
  h_S4000x1 : 0 < S4000x1.numel
  shapeCasts_S4000x1_S4000x1 : S4000x1.ShapeCasts S4000x1
  reduces_S4000x64_S4000 : S4000x64.Reduces [1] S4000
  shapeCasts_S4000_S4000x1 : S4000.ShapeCasts S4000x1
  inb_S4000x1_S4000x1_0_0 : ∀ a, (![0, 0] : Fin 2 → Nat) a + S4000x1.size a ≤ S4000x1.size a
  dot_S100000x128_S128x64_S100000x64_1_0_0_1_n_n_wf : DotDims.WF S100000x128 S128x64 S100000x64 [1] [0] [0] [1] [] []
  dot_S20000x128_S128x64_S20000x64_1_0_0_1_n_n_wf : DotDims.WF S20000x128 S128x64 S20000x64 [1] [0] [0] [1] [] []
  gather_S100000x64_S1000000x1_S1000000x64_1_0_n_n_0_1_164_wf : GatherDims.WF S100000x64 S1000000x1 S1000000x64 [1] [0] [] [0] [] 1 ![1, 64]
  gather_S20000x65_S1000000x1_S1000000x65_1_0_n_n_0_1_165_wf : GatherDims.WF S20000x65 S1000000x1 S1000000x65 [1] [0] [] [0] [] 1 ![1, 65]
  dot_S4000x32_S32x64_S4000x64_1_0_0_1_n_n_wf : DotDims.WF S4000x32 S32x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1000000x64.size a
  hwx0_0 : ∀ i : grid0.Coords, EltTy.bits .bf16 = 32 ∨ (Rect.block (s := S1000000x64) S4000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S1000000x32.size a
  hwx0_1 : ∀ i : grid0.Coords, EltTy.bits .f32 = 32 ∨ (Rect.block (s := S1000000x32) S4000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x65.size a ≤ S1000000x65.size a
  hwx0_2 : ∀ i : grid0.Coords, EltTy.bits .f32 = 32 ∨ (Rect.block (s := S1000000x65) S4000x65.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x1.size a ≤ S1000000x1.size a
  hwx0_5 : ∀ i : grid0.Coords, EltTy.bits .f32 = 32 ∨ (Rect.block (s := S1000000x1) S4000x1.size (cc0_transform_5 i) (hinb0_5 i)).WholeWords (EltTy.packing .f32)

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S20000x65_S1000000x1_S1000000x65_1_0_n_n_0_1_165 : GatherDims S20000x65 S1000000x1 S1000000x65 where
  offsetDims := [1]
  collapsedSliceDims := [0]
  operandBatchingDims := []
  startIndicesBatchingDims := []
  startIndexMap := [0]
  indexVectorDim := 1
  sliceSizes := ![1, 65]
  wf := gather_S20000x65_S1000000x1_S1000000x65_1_0_n_n_0_1_165_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf

abbrev win0_0 : Pipeline.Window sig grid0 :=
  Pipeline.Window.ofSpec (Memref.whole main_v20) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x65.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S4000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S2x1000000 : Shape := ⟨2, ![2, 1000000]⟩
abbrev S1000000x32 : Shape := ⟨2, ![1000000, 32]⟩
abbrev S20000x1 : Shape := ⟨2, ![20000, 1]⟩
abbrev S160x64 : Shape := ⟨2, ![160, 64]⟩
abbrev S64 : Shape := ⟨1, ![64]⟩
abbrev S128x64 : Shape := ⟨2, ![128, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x160 : Shape := ⟨2, ![1000000, 160]⟩
abbrev S1000000x64 : Shape := ⟨2, ![1000000, 64]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S2x1000000, .i32⟩
  | .hbm, ⟨3, _⟩ => ⟨S1000000x32, .f32⟩
  | .hbm, ⟨4, _⟩ => ⟨S20000x1, .f32⟩
  | .hbm, ⟨5, _⟩ => ⟨S160x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x128, .f32⟩
  | .hbm, ⟨20, _⟩ => ⟨S1x1000000, .i32⟩
  | .hbm, ⟨21, _⟩ => ⟨S1000000, .i32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x128, .f32⟩
  | .hbm, ⟨31, _⟩ => ⟨S1000000x160, .f32⟩
  | .hbm, ⟨32, _⟩ => ⟨S1000000x64, .f32⟩
  | .hbm, ⟨33, _⟩ => ⟨S1x64, .f32⟩
  | .hbm, ⟨34, _⟩ => ⟨S1000000x64, .f32⟩
  | .hbm, ⟨35, _⟩ => ⟨S1000000x64, .f32⟩
  | .hbm, ⟨36, _⟩ => ⟨S_, .f32⟩
  | .hbm, ⟨37, _⟩ => ⟨S1000000x64, .f32⟩
  | .hbm, ⟨38, _⟩ => ⟨S1000000x64, .i1⟩
  | .hbm, ⟨39, _⟩ => ⟨S_, .f32⟩
  | .hbm, ⟨40, _⟩ => ⟨S1000000x64, .f32⟩
  | .hbm, ⟨41, _⟩ => ⟨S1000000x64, .i1⟩
  | .hbm, ⟨42, _⟩ => ⟨S_, .f32⟩
  | .hbm, ⟨43, _⟩ => ⟨S_, .f32⟩
  | .hbm, ⟨44, _⟩ => ⟨S1000000x64, .f32⟩
  | .hbm, ⟨45, _⟩ => ⟨S1000000x64, .f32⟩
  | .hbm, ⟨46, _⟩ => ⟨S1000000x64, .f32⟩
  | .hbm, ⟨47, _⟩ => ⟨S_, .f32⟩
  | .hbm, ⟨48, _⟩ => ⟨S1000000x64, .f32⟩
  | .hbm, ⟨49, _⟩ => ⟨S1000000x64, .f32⟩
  | .hbm, ⟨50, _⟩ => ⟨S1000000x64, .f32⟩
  | .hbm, ⟨51, _⟩ => ⟨S1000000x64, .f32⟩
  | .hbm, ⟨52, _⟩ => ⟨S1x64, .f32⟩
  | .hbm, ⟨53, _⟩ => ⟨S1000000x64, .f32⟩
  | .hbm, ⟨54, _⟩ => ⟨S1000000x64, .f32⟩
  | .hbm, ⟨55, _⟩ => ⟨S_, .f32⟩
  | .hbm, ⟨56, _⟩ => ⟨S1000000x64, .f32⟩
  | .hbm, ⟨57, _⟩ => ⟨S1000000x64, .f32⟩
  | .hbm, ⟨58, _⟩ => ⟨S1000000x64, .f32⟩
  | .hbm, ⟨59, _⟩ => ⟨S1000000x64, .f32⟩
  | .hbm, ⟨60, _⟩ => ⟨S1000000x64, .i1⟩
  | .hbm, ⟨61, _⟩ => ⟨S1000000x64, .f32⟩
  | .hbm, ⟨62, _⟩ => ⟨S1000000x64, .f32⟩
  | .hbm, ⟨63, _⟩ => ⟨S1000000x64, .f32⟩
  | .hbm, ⟨64, _⟩ => ⟨S1000000x64, .f32⟩
  | .hbm, ⟨65, _⟩ => ⟨S1000000x64, .f32⟩
  | .hbm, ⟨66, _⟩ => ⟨S1000000x64, .f32⟩
  | .hbm, ⟨67, _⟩ => ⟨S1000000x64, .f32⟩
  | .hbm, ⟨68, _⟩ => ⟨S1000000x64, .f32⟩
  | .hbm, ⟨69, _⟩ => ⟨S1000000x64, .f32⟩
  | .hbm, ⟨70, _⟩ => ⟨S_, .f32⟩
  | .hbm, ⟨71, _⟩ => ⟨S1000000, .f32⟩
  | .hbm, ⟨72, _⟩ => ⟨S1000000x1, .f32⟩
  | .hbm, ⟨73, _⟩ => ⟨S1x1000000, .i32⟩
  | .hbm, ⟨74, _⟩ => ⟨S1000000, .i32⟩
  | .hbm, ⟨75, _⟩ => ⟨S_, .i32⟩
  | .hbm, ⟨76, _⟩ => ⟨S1000000, .i32⟩
  | .hbm, ⟨77, _⟩ => ⟨S1000000, .i1⟩
  | .hbm, ⟨78, _⟩ => ⟨S_, .i32⟩
  | .hbm, ⟨79, _⟩ => ⟨S1000000, .i32⟩
  | .hbm, ⟨80, _⟩ => ⟨S1000000, .i32⟩
  | .hbm, ⟨81, _⟩ => ⟨S1000000, .i32⟩
  | .hbm, ⟨82, _⟩ => ⟨S1000000x1, .i32⟩
  | .hbm, ⟨83, _⟩ => ⟨S1000000x1, .f32⟩
  | .hbm, ⟨84, _⟩ => ⟨S1000000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_cst_0 : Ref sig .tc := ⟨.hbm, 39, rfl⟩
abbrev main_call0_v2 : Ref sig .tc := ⟨.hbm, 40, rfl⟩
abbrev main_call0_v3 : Ref sig .tc := ⟨.hbm, 41, rfl⟩
abbrev main_call0_cst_1 : Ref sig .tc := ⟨.hbm, 42, rfl⟩
abbrev main_call0_call0_v0 : Ref sig .tc := ⟨.hbm, 43, rfl⟩
abbrev main_call0_call0_v1 : Ref sig .tc := ⟨.hbm, 44, rfl⟩
abbrev main_call0_v4 : Ref sig .tc := ⟨.hbm, 45, rfl⟩
abbrev main_call0_v5 : Ref sig .tc := ⟨.hbm, 46, rfl⟩
abbrev main_call0_cst_2 : Ref sig .tc := ⟨.hbm, 47, rfl⟩
abbrev main_call0_v6 : Ref sig .tc := ⟨.hbm, 48, rfl⟩
abbrev main_call0_v7 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_v28 : Ref sig .tc := ⟨.hbm, 68, rfl⟩
abbrev main_v29 : Ref sig .tc := ⟨.hbm, 69, rfl⟩
abbrev main_cst : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_c_3 : Ref sig .tc := ⟨.hbm, 75, rfl⟩
abbrev main_v34 : Ref sig .tc := ⟨.hbm, 76, rfl⟩
abbrev main_v35 : Ref sig .tc := ⟨.hbm, 77, rfl⟩
abbrev main_c_4 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  concatenates_S1000000x128_S1000000x32_S1000000x160_d1 : Shape.Concatenates [S1000000x128, S1000000x32] S1000000x160 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  reducesTo_S1000000x64_S1000000_d1 : S1000000x64.ReducesTo [1] S1000000
  h_S_ : 0 < S_.numel
  gather_S100000x128_S1000000x1_S1000000x128_1_0_n_n_0_1_1128_wf : GatherDims.WF S100000x128 S1000000x1 S1000000x128 [1] [0] [] [0] [] 1 ![1, 128]
  gather_S20000x128_S1000000x1_S1000000x128_1_0_n_n_0_1_1128_wf : GatherDims.WF S20000x128 S1000000x1 S1000000x128 [1] [0] [] [0] [] 1 ![1, 128]
  dot_S1000000x160_S160x64_S1000000x64_1_0_0_1_n_n_wf : DotDims.WF S1000000x160 S160x64 S1000000x64 [1] [0] [0] [1] [] []
  dot_S1000000x128_S128x64_S1000000x64_1_0_0_1_n_n_wf : DotDims.WF S1000000x128 S128x64 S1000000x64 [1] [0] [0] [1] [] []
  gather_S20000x1_S1000000x1_S1000000x1_1_0_n_n_0_1_11_wf : GatherDims.WF S20000x1 S1000000x1 S1000000x1 [1] [0] [] [0] [] 1 ![1, 1]

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def dot_S1000000x160_S160x64_S1000000x64_1_0_0_1_n_n : DotDims S1000000x160 S160x64 S1000000x64 where
  lhsContracting := [1]
  rhsContracting := [0]
  lhsNonContracting := [0]
  rhsNonContracting := [1]
  lhsBatch := []
  rhsBatch := []
  wf := dot_S1000000x160_S160x64_S1000000x64_1_0_0_1_n_n_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def gather_S20000x1_S1000000x1_S1000000x1_1_0_n_n_0_1_11 : GatherDims S20000x1 S1000000x1 S1000000x1 where
  offsetDims := [1]
  collapsedSliceDims := [0]
  operandBatchingDims := []
  startIndicesBatchingDims := []
  startIndexMap := [0]
  indexVectorDim := 1
  sliceSizes := ![1, 1]
  wf := gather_S20000x1_S1000000x1_S1000000x1_1_0_n_n_0_1_11_wf

class Facts : Prop extends Facts₀ where

variable [Facts]
-- ==== Proof.Spec.lean ====
/-
  The two programs as functions of the argument arrays, index by index, over the extended reals.

  An edge `e` selects a student row `row0 I0 e` and an item row `row1 I1 e` (the start index read as a signed integer and
  clamped into the table, as a gather clamps it).  Its score is

      ∑ j, elu (lin e j) · softplus (z (row1 e) j)  +  offset (row1 e)

  with `lin e j = ∑ k<160, [x_student (row0 e) | edge_feat e] k · W1 k j + b1 j` and
  `z r j = ∑ k<128, x_item r k · W2 k j + b2 j`.
  The kernel's program splits the 160-term contraction into the 128 student terms (projected per table row, then gathered) and
  the 32 edge terms (contracted per block), and adds the bias between them; the reference contracts the concatenated row at
  once.  The two agree because a sum over `Fin 160` is the sum of its first 128 and last 32 terms and addition of extended
  reals is commutative and associative; no product is distributed, so no finiteness is used.  The reference's `elu` spells
  `1 · expm1 (where (x > 0) 0 x)` where the kernel spells `exp x − 1`: equal on the branch that is selected.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The f32 zero and one, as the programs' literals denote them. -/
def zero32 : EReal := Ideal.ofBits .f32 0x00000000#32
def one32 : EReal := Ideal.ofBits .f32 0x3F800000#32

theorem zero32_eq : zero32 = 0 := Ideal.ofBits_zero_f32
theorem one32_eq : one32 = 1 := by simp [one32, Ideal.ofBits, Ideal.ieee, -EReal.coe_mul]; norm_num

/-- The table row (of `N`) that edge `e`'s start index selects: read signed, clamped into `[0, N − 1]`. -/
def rowOf (N : Nat) (I : IVec ⟨2, ![1000000, 1]⟩ 32) (e : Fin 1000000) : Nat :=
  min (I (ix2 e 0)).toInt.toNat (N - 1)

def row0 (I : IVec ⟨2, ![1000000, 1]⟩ 32) (e : Fin 1000000) : Fin 100000 := ⟨rowOf 100000 I e, by unfold rowOf; omega⟩
def row1 (I : IVec ⟨2, ![1000000, 1]⟩ 32) (e : Fin 1000000) : Fin 20000 := ⟨rowOf 20000 I e, by unfold rowOf; omega⟩

/-- `x > 0` as the programs compare it. -/
def gt0 (x : EReal) : BitVec 1 := FloatOps.cmpf (F := Ideal) (φ := .f32) .ogt x zero32

/-- The kernel's ELU: `x` where positive, else `exp x − 1`. -/
def eluK (x : EReal) : EReal := Scalar.select (gt0 x) x (Ideal.exp x - one32)

/-- The reference's ELU: `x` where positive, else `1 · expm1 (where (x > 0) 0 x)`. -/
def eluR (x : EReal) : EReal :=
  Scalar.select (gt0 x) x (one32 * (Ideal.exp (Scalar.select (gt0 x) zero32 x) - 1))

theorem eluR_eq_eluK (x : EReal) : eluR x = eluK x := by
  unfold eluR eluK
  rcases BitVec.eq_zero_or_eq_one (gt0 x) with h | h
  · rw [h, select_zero, select_zero, select_zero, one32_eq, one_mul]
  · rw [h, select_one, select_one]

/-- Softplus as both programs spell it (`logaddexp x 0` with its NaN guard, which never fires on extended reals). -/
def spS (z : EReal) : EReal :=
  Scalar.select (FloatOps.cmpf (F := Ideal) (φ := .f32) .une (z - zero32) (z - zero32)) (z + zero32)
    (max z zero32 + Ideal.log1p (Ideal.exp (-(max (z - zero32) (-(z - zero32))))))

section Arrays

variable (a0 : (⟨2, ![100000, 128]⟩ : Shape).Idx → EReal) (a1 : (⟨2, ![20000, 128]⟩ : Shape).Idx → EReal)
  (I0 I1 : IVec ⟨2, ![1000000, 1]⟩ 32)
  (a3 : (⟨2, ![1000000, 32]⟩ : Shape).Idx → EReal) (a4 : (⟨2, ![20000, 1]⟩ : Shape).Idx → EReal)
  (a5 : (⟨2, ![160, 64]⟩ : Shape).Idx → EReal) (a6 : (⟨1, ![64]⟩ : Shape).Idx → EReal)
  (a7 : (⟨2, ![128, 64]⟩ : Shape).Idx → EReal) (a8 : (⟨1, ![64]⟩ : Shape).Idx → EReal)

/-- A student row projected by the first 128 rows of `W1`. -/
def proj (r : Fin 100000) (j : Fin 64) : EReal :=
  ∑ k : Fin 128, a0 (ix2 r k) * a5 (ix2 (⟨k.val, by omega⟩ : Fin 160) j)

/-- An edge's features contracted with the last 32 rows of `W1`. -/
def efw (e : Fin 1000000) (j : Fin 64) : EReal :=
  ∑ k : Fin 32, a3 (ix2 e k) * a5 (ix2 (⟨128 + k.val, by omega⟩ : Fin 160) j)

/-- The kernel's pre-activation: edge terms, then the bias, then the gathered projection. -/
def linK (e : Fin 1000000) (j : Fin 64) : EReal :=
  (efw a3 a5 e j + a6 (ix1 j)) + proj a0 a5 (row0 I0 e) j

/-- A row of 128 followed by a row of 32. -/
def catRow (u : Fin 128 → EReal) (v : Fin 32 → EReal) (k : Fin 160) : EReal :=
  if h : k.val < 128 then u ⟨k.val, h⟩ else v ⟨k.val - 128, by omega⟩

/-- The reference's pre-activation: the concatenated row contracted with `W1`, then the bias. -/
def linR (e : Fin 1000000) (j : Fin 64) : EReal :=
  (∑ k : Fin 160, catRow (fun k => a0 (ix2 (row0 I0 e) k)) (fun k => a3 (ix2 e k)) k * a5 (ix2 k j)) + a6 (ix1 j)

/-- An item row projected by `W2`, plus the bias. -/
def zz (r : Fin 20000) (j : Fin 64) : EReal :=
  (∑ k : Fin 128, a1 (ix2 r k) * a7 (ix2 k j)) + a8 (ix1 j)

/-- The kernel's score of edge `e`. -/
def outK (e : Fin 1000000) : EReal :=
  (∑ j : Fin 64, eluK (linK a0 I0 a3 a5 a6 e j) * spS (zz a1 a7 a8 (row1 I1 e) j)) + a4 (ix2 (row1 I1 e) 0)

/-- The reference's score of edge `e`. -/
def outR (e : Fin 1000000) : EReal :=
  (zero32 + ∑ j : Fin 64, eluR (linR a0 I0 a3 a5 a6 e j) * spS (zz a1 a7 a8 (row1 I1 e) j)) + a4 (ix2 (row1 I1 e) 0)

/-- The contraction over the concatenated row is the sum of the two parts' contractions. -/
theorem sum_catRow (u : Fin 128 → EReal) (v : Fin 32 → EReal) (w : Fin 160 → EReal) :
    ∑ k : Fin 160, catRow u v k * w k
      = (∑ k : Fin 128, u k * w ⟨k.val, by omega⟩) + ∑ k : Fin 32, v k * w ⟨128 + k.val, by omega⟩ := by
  have h := Fin.sum_univ_add (a := 128) (b := 32) (fun k : Fin (128 + 32) => catRow u v k * w k)
  refine h.trans (congrArg₂ (· + ·) ?_ ?_)
  · refine Finset.sum_congr rfl fun k _ => ?_
    have hk : ((Fin.castAdd 32 k : Fin (128 + 32)) : Fin 160).val < 128 := k.isLt
    show catRow u v (Fin.castAdd 32 k) * _ = _
    unfold catRow
    rw [dif_pos hk]
    rfl
  · refine Finset.sum_congr rfl fun k _ => ?_
    have hk : ¬ ((Fin.natAdd 128 k : Fin (128 + 32)) : Fin 160).val < 128 := by
      show ¬ (128 + k.val < 128); omega
    show catRow u v (Fin.natAdd 128 k) * _ = _
    unfold catRow
    rw [dif_neg hk]
    have : (⟨(Fin.natAdd 128 k : Fin (128 + 32)).val - 128, by show 128 + k.val - 128 < 32; omega⟩ : Fin 32) = k :=
      Fin.ext (by show 128 + k.val - 128 = k.val; omega)
    rw [this]
    rfl

theorem linR_eq_linK (e : Fin 1000000) (j : Fin 64) : linR a0 I0 a3 a5 a6 e j = linK a0 I0 a3 a5 a6 e j := by
  unfold linR linK proj efw
  rw [sum_catRow]
  rw [add_comm (∑ k : Fin 128, _) (∑ k : Fin 32, _), add_right_comm]

theorem outR_eq_outK (e : Fin 1000000) : outR a0 a1 I0 I1 a3 a4 a5 a6 a7 a8 e = outK a0 a1 I0 I1 a3 a4 a5 a6 a7 a8 e := by
  unfold outR outK
  rw [zero32_eq, zero_add]
  refine congrArg (· + _) (Finset.sum_congr rfl fun j _ => ?_)
  rw [eluR_eq_eluK, linR_eq_linK]

/-- The kernel's result array. -/
def GK : (⟨2, ![1000000, 1]⟩ : Shape).Idx → EReal := fun i => outK a0 a1 I0 I1 a3 a4 a5 a6 a7 a8 (i 0)

/-- The reference's result array. -/
def GR : (⟨2, ![1000000, 1]⟩ : Shape).Idx → EReal := fun i => outR a0 a1 I0 I1 a3 a4 a5 a6 a7 a8 (i 0)

theorem GR_eq_GK : GR a0 a1 I0 I1 a3 a4 a5 a6 a7 a8 = GK a0 a1 I0 I1 a3 a4 a5 a6 a7 a8 :=
  funext fun i => outR_eq_outK a0 a1 I0 I1 a3 a4 a5 a6 a7 a8 (i 0)

end Arrays

end Cert.Spec

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KPayload.lean ====
/-
  The kernel body's stored value at a row of its block.

  For row `r` of a block of 4000 edges the body stores, in column 0,

      ∑ j<64, elu ((∑ k<32, ef r k · w k j + b j) + s r j) · y r j  +  off r

  where `ef` is the edge-feature block, `w` the last 32 rows of the first weight matrix, `b` the bias, `s` the gathered
  student projection, `y` the first 64 columns of the gathered item table and `off` its last column.  The changes of
  float format are the identity on extended reals, the matrix product into the zero accumulator is the plain sum over the
  32 contracted columns, and the lane reduction is the plain sum over the 64 lanes.
-/
import proofs.«137231_j76209899701047_2_alg».proof.Proof.Gen.KernelIdeal.Skeleton
import proofs.«137231_j76209899701047_2_alg».proof.Proof.Spec
import proofs.«137231_j76209899701047_2_alg».proof.Proof.LibPlainDot
import proofs.«137231_j76209899701047_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx

/-- The pre-activation of row `r`, lane `j`: the 32 edge terms, the bias, the gathered projection. -/
theorem preact_apply (v0 : Vec Ideal S4000x64 .bf16) (v3 : Vec Ideal S4000x32 .f32) (v5 : Vec Ideal S32x64 .f32)
    (v9 : Vec Ideal S64 .f32) (r : Fin 4000) (j : Fin 64) :
    addf (addf (matmul dot_S4000x32_S32x64_S4000x64_1_0_0_1_n_n none
            (truncf .bf16 v3 bitsLt_bf16_f32 : FVec Ideal S4000x32 .bf16)
            (truncf .bf16 (shapeCast S32x64 v5 Facts₀.shapeCasts_S32x64_S32x64) bitsLt_bf16_f32 : FVec Ideal S32x64 .bf16)
            (constant S4000x64 .f32 0x00000000#32))
          (broadcastTo S4000x64 (shapeCast S1x64 v9 Facts₀.shapeCasts_S64_S1x64) Facts₀.broadcasts_S1x64_S4000x64))
        (extf .f32 (shapeCast S4000x64 v0 Facts₀.shapeCasts_S4000x64_S4000x64) bitsLt_bf16_f32 : FVec Ideal S4000x64 .f32)
        (ix2 r j)
      = ((∑ k : Fin 32, v3 (ix2 r k) * v5 (ix2 k j)) + v9 (ix1 j)) + v0 (ix2 r j) := by
  refine (addf_apply _ _ _).trans ?_
  refine congrArg₂ (· + ·) ((addf_apply _ _ _).trans (congrArg₂ (· + ·) ?_ ?_)) ?_
  · refine (Cert.Lib.matmul_plain_zero_apply (M := 4000) (K := 32) (N := 64) none _ _ r j).trans ?_
    refine Finset.sum_congr rfl fun k _ => ?_
    refine congrArg₂ (· * ·) rfl ?_
    show shapeCast S32x64 v5 Facts₀.shapeCasts_S32x64_S32x64 (ix2 k j) = v5 (ix2 k j)
    rw [shapeCast_self]
  · refine (broadcastTo_1b_ab_apply _ _ r j).trans ?_
    exact shapeCast_a_1a_apply v9 _ 0 j
  · show shapeCast S4000x64 v0 Facts₀.shapeCasts_S4000x64_S4000x64 (ix2 r j) = v0 (ix2 r j)
    rw [shapeCast_self]

/-- The lane reduction's inserted index is `(r, j)`. -/
theorem lift_row (r : Fin 4000) (j : Fin 64) :
    (Facts₀.reduces_S4000x64_S4000 : S4000x64.Reduces [1] S4000).lift (ix1 r) j = ix2 r j := by
  funext a
  refine Fin.ext ?_
  match a with
  | ⟨0, _⟩ => rfl
  | ⟨1, _⟩ => rfl

/-- The lane reduction of row `r` is the plain sum over its 64 lanes. -/
theorem lane_sum (src : FVec Ideal S4000x64 .f32) (hφ : FKind.Formats .f32)
    (hacc : (0x00000000#32 : BitVec 32) = FKind.add.neutral .f32 hφ) (r : Fin 4000) :
    multiReduction .add [1] S4000 src 0x00000000#32 Facts₀.reduces_S4000x64_S4000 hφ hacc (ix1 r)
      = ∑ j : Fin 64, src (ix2 r j) :=
  (Ideal.multiReduction_add_single (s := S4000x64) (t := S4000) (a := (1 : Fin 2)) src 0x00000000#32
      Facts₀.reduces_S4000x64_S4000 hφ hacc (ix1 r)).trans
    (Finset.sum_congr rfl fun j _ => congrArg src (lift_row r j))

/-- THE STORED VALUE at row `r` of the block. -/
theorem pay_apply (v0 : Vec Ideal S4000x64 .bf16) (v3 : Vec Ideal S4000x32 .f32) (v5 : Vec Ideal S32x64 .f32)
    (v9 : Vec Ideal S64 .f32) (v20 : Vec Ideal S4000x64 .f32) (v22 : Vec Ideal S4000x1 .f32) (r : Fin 4000) :
    k0_pay1 (F := Ideal) v0 v3 v5 v9 v20 v22 (ix2 r (0 : Fin 1))
      = (∑ j : Fin 64, Cert.Spec.eluK (((∑ k : Fin 32, v3 (ix2 r k) * v5 (ix2 k j)) + v9 (ix1 j)) + v0 (ix2 r j))
            * v20 (ix2 r j))
          + v22 (ix2 r (0 : Fin 1)) := by
  unfold k0_pay1
  dsimp only
  refine (addf_apply _ _ _).trans ?_
  refine congrArg₂ (· + ·) ?_ ?_
  · refine (Cert.LibKeepdims.shapeCast_a_a1_apply _ _ r 0).trans ?_
    refine (lane_sum _ _ _ r).trans ?_
    refine Finset.sum_congr rfl fun j _ => ?_
    refine (mulf_apply _ _ _).trans ?_
    refine congrArg₂ (· * ·) ?_ ?_
    · refine Eq.trans ?_ (congrArg Cert.Spec.eluK (preact_apply v0 v3 v5 v9 r j))
      rfl
    · show shapeCast S4000x64 v20 Facts₀.shapeCasts_S4000x64_S4000x64 (ix2 r j) = v20 (ix2 r j)
      rw [shapeCast_self]
  · show shapeCast S4000x1 v22 Facts₀.shapeCasts_S4000x1_S4000x1 (ix2 r 0) = v22 (ix2 r 0)
    rw [shapeCast_self]

end Cert.KernelIdeal.KValue

end
-- ==== Proof.KPoint.lean ====
/-
  What one grid point leaves in the output block, as the specification's score.

  Stated over VARIABLE blocks: if, at row `r` of the point's blocks, the projection block holds the gathered student
  projection of edge `e`, the edge-feature block holds edge `e`'s features, the item block holds `[softplus (z (row1 e)) | offset (row1 e)]`,
  and the two resident blocks hold the last 32 rows of the first weight matrix and the bias, then the body's one store
  leaves `outK e` at `(r, 0)`.
-/
import proofs.«137231_j76209899701047_2_alg».proof.Proof.Gen.KernelIdeal.Frame
import proofs.«137231_j76209899701047_2_alg».proof.Proof.KPayload

noncomputable section

namespace Cert.KernelIdeal.KValue

open Cert.KernelIdeal Cert.KernelIdeal.Gen Idealize.ShloMosaic Idealize.ShloMosaic.ValueIdx

theorem hz2 : (![0, 0] : Fin 2 → Nat) = fun _ => 0 := funext fun a => by fin_cases a <;> rfl
theorem hz1 : (![0] : Fin 1 → Nat) = fun _ => 0 := funext fun a => by fin_cases a; rfl

/-- An index of a one-column block is its row with column 0. -/
theorem eq_row (y : S4000x1.Idx) : y = ix2 (⟨(y 0).val, (y 0).isLt⟩ : Fin 4000) (0 : Fin 1) := by
  funext a
  refine Fin.ext ?_
  match a with
  | ⟨0, _⟩ => rfl
  | ⟨1, _⟩ =>
    have h : (y 1).val < 1 := (y 1).isLt
    show (y 1).val = 0
    omega

/-- The first 64 columns of the item block, loaded as their own vector. -/
theorem ld_left (x2 : Vec Ideal S4000x65 .f32) (r : Fin 4000) (j : Fin 64) :
    View.ld x2 r0_4 (ix2 r j) = x2 (ix2 r (⟨j.val, by omega⟩ : Fin 65)) := by
  show x2 (r0_4.emb (ix2 r j)) = _
  refine congrArg x2 (funext fun a => Fin.ext ?_)
  rw [Rect.emb_apply]
  match a with
  | ⟨0, _⟩ => show 0 + 1 * r.val = r.val; omega
  | ⟨1, _⟩ => show 0 + 1 * j.val = j.val; omega

/-- The last column of the item block, loaded as a column. -/
theorem ld_last (x2 : Vec Ideal S4000x65 .f32) (r : Fin 4000) :
    View.ld x2 r0_5 (ix2 r (0 : Fin 1)) = x2 (ix2 r (⟨64, by omega⟩ : Fin 65)) := by
  show x2 (r0_5.emb (ix2 r (0 : Fin 1))) = _
  refine congrArg x2 (funext fun a => Fin.ext ?_)
  rw [Rect.emb_apply]
  match a with
  | ⟨0, _⟩ => show 0 + 1 * r.val = r.val; omega
  | ⟨1, _⟩ => show 64 + 1 * 0 = 64; rfl

section Point

variable (a0 : (⟨2, ![100000, 128]⟩ : Shape).Idx → EReal) (a1 : (⟨2, ![20000, 128]⟩ : Shape).Idx → EReal)
  (I0 I1 : IVec ⟨2, ![1000000, 1]⟩ 32)
  (a3 : (⟨2, ![1000000, 32]⟩ : Shape).Idx → EReal) (a4 : (⟨2, ![20000, 1]⟩ : Shape).Idx → EReal)
  (a5 : (⟨2, ![160, 64]⟩ : Shape).Idx → EReal) (a6 : (⟨1, ![64]⟩ : Shape).Idx → EReal)
  (a7 : (⟨2, ![128, 64]⟩ : Shape).Idx → EReal) (a8 : (⟨1, ![64]⟩ : Shape).Idx → EReal)

/-- THE POINT'S STORE is the score of the edge its row holds. -/
theorem point_eq (x0 : Vec Ideal S4000x64 .bf16) (x1 : Vec Ideal S4000x32 .f32) (x2 : Vec Ideal S4000x65 .f32)
    (x3 : Vec Ideal S32x64 .f32) (x4 : Vec Ideal S64 .f32) (r : Fin 4000) (e : Fin 1000000)
    (h0 : ∀ j : Fin 64, x0 (ix2 r j) = Cert.Spec.proj a0 a5 (Cert.Spec.row0 I0 e) j)
    (h1 : ∀ k : Fin 32, x1 (ix2 r k) = a3 (ix2 e k))
    (h2 : ∀ j : Fin 64, x2 (ix2 r (⟨j.val, by omega⟩ : Fin 65))
      = Cert.Spec.spS (Cert.Spec.zz a1 a7 a8 (Cert.Spec.row1 I1 e) j))
    (h2' : x2 (ix2 r (⟨64, by omega⟩ : Fin 65)) = a4 (ix2 (Cert.Spec.row1 I1 e) 0))
    (h3 : ∀ (k : Fin 32) (j : Fin 64), x3 (ix2 k j) = a5 (ix2 (⟨128 + k.val, by omega⟩ : Fin 160) j))
    (h4 : ∀ j : Fin 64, x4 (ix1 j) = a6 (ix1 j)) :
    out0_5 x0 x1 x2 x3 x4 (ix2 r (0 : Fin 1)) = Cert.Spec.outK a0 a1 I0 I1 a3 a4 a5 a6 a7 a8 e := by
  unfold out0_5
  rw [View.canon_unit_zero hz2]
  simp only [View.ld_unit_zero (S := S4000x64) hz2, View.ld_unit_zero (S := S4000x32) hz2,
    View.ld_unit_zero (S := S32x64) hz2, View.ld_unit_zero (S := S64) hz1]
  refine (pay_apply x0 x1 x3 x4 (View.ld x2 r0_4) (View.ld x2 r0_5) r).trans ?_
  unfold Cert.Spec.outK Cert.Spec.linK Cert.Spec.efw
  refine congrArg₂ (· + ·) (Finset.sum_congr rfl fun j _ => ?_) ?_
  · rw [ld_left, h2 j, h0 j, h4 j]
    refine congrArg (fun s => Cert.Spec.eluK ((s + _) + _) * _) (Finset.sum_congr rfl fun k _ => ?_)
    rw [h1 k, h3 k j]
  · rw [ld_last, h2']

end Point

end Cert.KernelIdeal.KValue

end
-- ==== Proof.KBlocks.lean ====
/-
  From the grid points' blocks to the kernel's result array.

  Point `t` of the 250 reads rows `4000 t … 4000 t + 3999` of the three edge-indexed arrays (the gathered projection, the
  edge features, the gathered item table), the two resident arrays whole, and writes rows `4000 t …` of the result.  Given
  what the three host-computed arrays hold index by index (`HostReads`), row `r` of point `t`'s store is the score of edge
  `4000 t + r`; the 250 blocks cover the result array (row `i` lies in block `i / 4000`), so the array ends holding the
  specification's `GK` of the arguments.
-/
import proofs.«137231_j76209899701047_2_alg».proof.Proof.Gen.KernelIdeal.Value
import proofs.«137231_j76209899701047_2_alg».proof.Proof.KPoint
import Idealize.ShloMosaic.Lib.Pipeline.Value

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Value Idealize.ShloMosaic.ValueIdx

variable (m : (ℓ : Loc nD τ sig) → Buf (Elt Ideal) ℓ) (ρ : Dev nD → PrngReg)

/-- What the three host-computed arrays the windows read hold when the region is entered, index by index, in the
    specification's terms; `I0`, `I1` are the two start-index arrays as functions of the edge-index argument. -/
structure HostReads (I0 I1 : IVec S2x1000000 32 → IVec S1000000x1 32) : Prop where
  proj : ∀ (m : (ℓ : Loc nD τ sig) → Buf (Elt Ideal) ℓ) (c : Dev nD) (e : Fin 1000000) (j : Fin 64),
    (V (F := Ideal) m c main_v20 : S1000000x64.Idx → EReal) (ix2 e j)
      = Cert.Spec.proj (m ((c : Thread nD τ).loc main_arg0)) (m ((c : Thread nD τ).loc main_arg5))
          (Cert.Spec.row0 (I0 (m ((c : Thread nD τ).loc main_arg2))) e) j
  item : ∀ (m : (ℓ : Loc nD τ sig) → Buf (Elt Ideal) ℓ) (c : Dev nD) (e : Fin 1000000) (j : Fin 64),
    (V (F := Ideal) m c main_v27 : S1000000x65.Idx → EReal) (ix2 e (⟨j.val, by omega⟩ : Fin 65))
      = Cert.Spec.spS (Cert.Spec.zz (m ((c : Thread nD τ).loc main_arg1)) (m ((c : Thread nD τ).loc main_arg7))
          (m ((c : Thread nD τ).loc main_arg8)) (Cert.Spec.row1 (I1 (m ((c : Thread nD τ).loc main_arg2))) e) j)
  off : ∀ (m : (ℓ : Loc nD τ sig) → Buf (Elt Ideal) ℓ) (c : Dev nD) (e : Fin 1000000),
    (V (F := Ideal) m c main_v27 : S1000000x65.Idx → EReal) (ix2 e (⟨64, by omega⟩ : Fin 65))
      = (m ((c : Thread nD τ).loc main_arg4)) (ix2 (Cert.Spec.row1 (I1 (m ((c : Thread nD τ).loc main_arg2))) e) 0)
  w1b : ∀ (m : (ℓ : Loc nD τ sig) → Buf (Elt Ideal) ℓ) (c : Dev nD) (k : Fin 32) (j : Fin 64),
    (V (F := Ideal) m c main_v5 : S32x64.Idx → EReal) (ix2 k j)
      = (m ((c : Thread nD τ).loc main_arg5)) (ix2 (⟨128 + k.val, by omega⟩ : Fin 160) j)

/-- The printed index maps, decided over the 250 points: the three edge-indexed windows and the output move one block
    of rows per point, the two resident windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `r` of the projection window's block at point `t` is row `4000 t + r` of the gathered projection. -/
theorem iblk0_apply (c : Dev nD) (t : Fin cfg0.N) (r : Fin 4000) (j : Fin 64) (e : Fin 1000000)
    (he : e.val = t.val * 4000 + r.val) :
    (iblk m c 0 t : Vec Ideal S4000x64 .bf16) (ix2 r j) = (V m c main_v20 : S1000000x64.Idx → EReal) (ix2 e j) := by
  obtain ⟨h0, h1, -⟩ := idx_facts t
  unfold iblk
  rw [View.read_apply]
  show V m c main_v20 _ = V m c main_v20 _
  refine congrArg (V m c main_v20) (funext fun a => Fin.ext ?_)
  match a with
  | ⟨0, _⟩ => show win0_0.index t (0 : Fin 2) * 4000 + 1 * r.val = e.val; rw [h0, he]; omega
  | ⟨1, _⟩ => show win0_0.index t (1 : Fin 2) * 64 + 1 * j.val = j.val; rw [h1]; omega

/-- Row `r` of the edge-feature window's block at point `t` is row `4000 t + r` of the edge features. -/
theorem iblk1_apply (c : Dev nD) (t : Fin cfg0.N) (r : Fin 4000) (k : Fin 32) (e : Fin 1000000)
    (he : e.val = t.val * 4000 + r.val) :
    (iblk m c 1 t : Vec Ideal S4000x32 .f32) (ix2 r k)
      = (m ((c : Thread nD τ).loc main_arg3) : S1000000x32.Idx → EReal) (ix2 e k) := by
  obtain ⟨-, -, h0, h1, -⟩ := idx_facts t
  unfold iblk
  rw [View.read_apply]
  show V m c main_arg3 _ = _
  rw [V_main_arg3]
  refine congrArg (m ((c : Thread nD τ).loc main_arg3)) (funext fun a => Fin.ext ?_)
  match a with
  | ⟨0, _⟩ => show win0_1.index t (0 : Fin 2) * 4000 + 1 * r.val = e.val; rw [h0, he]; omega
  | ⟨1, _⟩ => show win0_1.index t (1 : Fin 2) * 32 + 1 * k.val = k.val; rw [h1]; omega

/-- Row `r` of the item window's block at point `t` is row `4000 t + r` of the gathered item table. -/
theorem iblk2_apply (c : Dev nD) (t : Fin cfg0.N) (r : Fin 4000) (j : Fin 65) (e : Fin 1000000)
    (he : e.val = t.val * 4000 + r.val) :
    (iblk m c 2 t : Vec Ideal S4000x65 .f32) (ix2 r j) = (V m c main_v27 : S1000000x65.Idx → EReal) (ix2 e j) := by
  obtain ⟨-, -, -, -, h0, h1, -⟩ := idx_facts t
  unfold iblk
  rw [View.read_apply]
  show V m c main_v27 _ = V m c main_v27 _
  refine congrArg (V m c main_v27) (funext fun a => Fin.ext ?_)
  match a with
  | ⟨0, _⟩ => show win0_2.index t (0 : Fin 2) * 4000 + 1 * r.val = e.val; rw [h0, he]; omega
  | ⟨1, _⟩ => show win0_2.index t (1 : Fin 2) * 65 + 1 * j.val = j.val; rw [h1]; omega

/-- The weight window's one block is the whole array of the first weight matrix's last 32 rows. -/
theorem iblk3_apply (c : Dev nD) (t : Fin cfg0.N) (k : Fin 32) (j : Fin 64) :
    (iblk m c 3 t : Vec Ideal S32x64 .f32) (ix2 k j) = (V m c main_v5 : S32x64.Idx → EReal) (ix2 k j) := by
  obtain ⟨-, -, -, -, -, -, h0, h1, -⟩ := idx_facts t
  unfold iblk
  rw [View.read_apply]
  show V m c main_v5 _ = V m c main_v5 _
  refine congrArg (V m c main_v5) (funext fun a => Fin.ext ?_)
  match a with
  | ⟨0, _⟩ => show win0_3.index t (0 : Fin 2) * 32 + 1 * k.val = k.val; rw [h0]; omega
  | ⟨1, _⟩ => show win0_3.index t (1 : Fin 2) * 64 + 1 * j.val = j.val; rw [h1]; omega

/-- The bias window's one block is the whole bias. -/
theorem iblk4_apply (c : Dev nD) (t : Fin cfg0.N) (j : Fin 64) :
    (iblk m c 4 t : Vec Ideal S64 .f32) (ix1 j) = (m ((c : Thread nD τ).loc main_arg6) : S64.Idx → EReal) (ix1 j) := by
  obtain ⟨-, -, -, -, -, -, -, -, h0, -⟩ := idx_facts t
  unfold iblk
  rw [View.read_apply]
  show V m c main_arg6 _ = _
  rw [V_main_arg6]
  refine congrArg (m ((c : Thread nD τ).loc main_arg6)) (funext fun a => Fin.ext ?_)
  match a with
  | ⟨0, _⟩ => show win0_4.index t (0 : Fin 1) * 64 + 1 * j.val = j.val; rw [h0]; omega

section Run

variable (I0 I1 : IVec S2x1000000 32 → IVec S1000000x1 32)

/-- The result array as the specification's function of the argument arrays. -/
def Gm (c : Dev nD) : S1000000x1.Idx → EReal :=
  Cert.Spec.GK (m ((c : Thread nD τ).loc main_arg0)) (m ((c : Thread nD τ).loc main_arg1))
    (I0 (m ((c : Thread nD τ).loc main_arg2))) (I1 (m ((c : Thread nD τ).loc main_arg2)))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- WHAT POINT `t` WRITES BACK is block `t` of the specification's result. -/
theorem flushed_eq (H : HostReads I0 I1) (c : Dev nD) (t : Fin cfg0.N) :
    (dats m 0 c).flushed 5 t = ((cfg0.win 5).blk t).view.read (Elt Ideal) (Gm m I0 I1 c) := by
  obtain ⟨-, -, -, -, -, -, -, -, -, h50, h51⟩ := idx_facts t
  rw [flushed5]
  funext y
  show out0_5 (iblk m c 0 t) (iblk m c 1 t) (iblk m c 2 t) (iblk m c 3 t) (iblk m c 4 t) y
      = Gm m I0 I1 c (((cfg0.win 5).blk t).view.emb y)
  have hN : cfg0.N = 250 := N_0
  have ht : t.val < 250 := hN ▸ t.isLt
  have hyr : (y : S4000x1.Idx) = ix2 (⟨((y : S4000x1.Idx) 0).val, ((y : S4000x1.Idx) 0).isLt⟩ : Fin 4000) (0 : Fin 1) :=
    eq_row y
  generalize (⟨((y : S4000x1.Idx) 0).val, ((y : S4000x1.Idx) 0).isLt⟩ : Fin 4000) = r at hyr
  have hr : r.val < 4000 := r.isLt
  obtain ⟨e, hemb, he⟩ : ∃ e : Fin 1000000,
      (((cfg0.win 5).blk t).view.emb y : S1000000x1.Idx) (0 : Fin 2) = e ∧ e.val = t.val * 4000 + r.val :=
    ⟨⟨t.val * 4000 + r.val, by omega⟩, Fin.ext (by
      have hy0 : ((y : S4000x1.Idx) 0).val = r.val := congrArg (fun z : S4000x1.Idx => (z 0).val) hyr
      show win0_5.index t (0 : Fin 2) * 4000 + 1 * ((y : S4000x1.Idx) 0).val = t.val * 4000 + r.val
      rw [h50, hy0]; omega), rfl⟩
  unfold Gm Cert.Spec.GK
  show _ = Cert.Spec.outK _ _ _ _ _ _ _ _ _ _ ((((cfg0.win 5).blk t).view.emb y : S1000000x1.Idx) (0 : Fin 2))
  rw [hemb]
  refine (congrArg (out0_5 (iblk m c 0 t) (iblk m c 1 t) (iblk m c 2 t) (iblk m c 3 t) (iblk m c 4 t)) hyr).trans ?_
  exact point_eq (m ((c : Thread nD τ).loc main_arg0)) (m ((c : Thread nD τ).loc main_arg1))
    (I0 (m ((c : Thread nD τ).loc main_arg2))) (I1 (m ((c : Thread nD τ).loc main_arg2)))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (iblk m c 0 t) (iblk m c 1 t) (iblk m c 2 t) (iblk m c 3 t) (iblk m c 4 t) r e
    (fun j => (iblk0_apply m c t r j e he).trans (H.proj m c e j))
    (fun k => iblk1_apply m c t r k e he)
    (fun j => (iblk2_apply m c t r (⟨j.val, by omega⟩ : Fin 65) e he).trans (H.item m c e j))
    ((iblk2_apply m c t r (⟨64, by omega⟩ : Fin 65) e he).trans (H.off m c e))
    (fun k j => (iblk3_apply m c t k j).trans (H.w1b m c k j))
    (fun j => iblk4_apply m c t j)

/-- An index of the result array is in point `t`'s block iff each coordinate is in the block's range on its axis. -/
theorem mem_blk (t : Fin cfg0.N) (i : S1000000x1.Idx) :
    i ∈ ((cfg0.win 5).blk t).view.set ↔ ∀ a : Fin 2, win0_5.index t a * S4000x1.size a ≤ (i a).val
      ∧ (i a).val < win0_5.index t a * S4000x1.size a + S4000x1.size a := by
  show i ∈ ((View.whole main_v28).slice (win0_5.rect t)).set ↔ _
  rw [View.set_slice_whole, Rect.mem_set_unit]
  exact Iff.rfl

/-- Every index of the result array is in some point's block: row `i` in block `i / 4000`. -/
theorem cover (i : S1000000x1.Idx) :
    ∃ t : Fin cfg0.N, (cfg0.win 5).flush t = true ∧ i ∈ ((cfg0.win 5).blk t).view.set := by
  have hi0 : (i 0).val < 1000000 := (i 0).isLt
  have hi1 : (i 1).val < 1 := (i 1).isLt
  have hN : cfg0.N = 250 := N_0
  have hlt : (i 0).val / 4000 < cfg0.N := by rw [hN]; omega
  obtain ⟨-, -, -, -, -, -, -, -, -, h50, h51⟩ := idx_facts ⟨(i 0).val / 4000, hlt⟩
  refine ⟨⟨(i 0).val / 4000, hlt⟩, flush0_5 _, ?_⟩
  rw [mem_blk]
  intro a
  match a with
  | ⟨0, _⟩ =>
    show win0_5.index ⟨(i 0).val / 4000, hlt⟩ (0 : Fin 2) * 4000 ≤ (i 0).val
      ∧ (i 0).val < win0_5.index ⟨(i 0).val / 4000, hlt⟩ (0 : Fin 2) * 4000 + 4000
    rw [h50]
    show (i 0).val / 4000 * 4000 ≤ (i 0).val ∧ (i 0).val < (i 0).val / 4000 * 4000 + 4000
    omega
  | ⟨1, _⟩ =>
    show win0_5.index ⟨(i 0).val / 4000, hlt⟩ (1 : Fin 2) * 1 ≤ (i 1).val
      ∧ (i 1).val < win0_5.index ⟨(i 0).val / 4000, hlt⟩ (1 : Fin 2) * 1 + 1
    rw [h51]
    omega

/-- THE RESULT ARRAY after the run is the specification's. -/
theorem final (H : HostReads I0 I1) (c : Dev nD) : (dats m 0 c).arrAt 5 cfg0.N = Gm m I0 I1 c :=
  (dats m 0 c).arrAt_eq_of_cover 5 (Gm m I0 I1 c) (fun t _ => flushed_eq m I0 I1 H c t) cover

/-- The kernel program's run, read: the result array at the specification's function of the arguments, the arguments
    unchanged. -/
theorem run (H : HostReads I0 I1) :
    θ_run (defs (F := Ideal)) (onTc (τ := τ) (main (F := Ideal))) ⟨m, fun _ => 0, ρ⟩ fun r => ∀ c : Dev nD,
      r.2.mem ((c : Thread nD τ).loc main_v28) = Gm m I0 I1 c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m I0 I1 H c), (h c).2⟩) (run_blocks m ρ)

end Run

end Cert.KernelIdeal.KValue

end
-- ==== Proof.KHostDefs.lean ====
/-
  The host side of the kernel's program, as functions of the argument arrays.

  Before its one pipelined region the program computes three arrays the region's windows read:
  the student table projected by the first 128 rows of `W1` and gathered by the edges' student rows; the item table's
  softplus of `x_item · W2 + b2` with the offset column appended, gathered by the edges' item rows; and the last 32 rows
  of `W1`.  This file names the pieces; each is the operations' own composition, nothing is rewritten.
-/
import proofs.«137231_j76209899701047_2_alg».proof.Proof.Gen.KernelIdeal
import Idealize.ShloMosaic.PureOps.Ideal

noncomputable section

namespace Cert.KernelIdeal.KHost

open Cert.KernelIdeal Cert.KernelIdeal.Gen
open Idealize.ShloMosaic

/-- Row 0 of the index pairs, as a vector. -/
def idx0 (a2 : IVec S2x1000000 32) : IVec S1000000 32 :=
  shapeCast S1000000 (extractStridedSlice S1x1000000 ![0, 0] a2 slices_S2x1000000_S1x1000000_0_0)
    shapeCasts_S1x1000000_S1000000

/-- Row 1 of the index pairs, as a vector. -/
def idx1 (a2 : IVec S2x1000000 32) : IVec S1000000 32 :=
  shapeCast S1000000 (extractStridedSlice S1x1000000 ![1, 0] a2 slices_S2x1000000_S1x1000000_1_0)
    shapeCasts_S1x1000000_S1000000

/-- A vector of indices with the negative ones wrapped by `n`, as a column of start indices. -/
def wrapCol (v : IVec S1000000 32) (n : BitVec 32) : IVec S1000000x1 32 :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 n)))
      v)

/-- The edges' student start indices. -/
def I0 (a2 : IVec S2x1000000 32) : IVec S1000000x1 32 := wrapCol (idx0 a2) 100000#32

/-- The edges' item start indices. -/
def I1 (a2 : IVec S2x1000000 32) : IVec S1000000x1 32 := wrapCol (idx1 a2) 20000#32

/-- The first 128 rows of `W1`. -/
def w1Top (a5 : S160x64.Idx → EReal) : S128x64.Idx → EReal :=
  extractStridedSlice S128x64 ![0, 0] a5 slices_S160x64_S128x64_0_0

/-- The last 32 rows of `W1`. -/
def w1Bot (a5 : S160x64.Idx → EReal) : S32x64.Idx → EReal :=
  extractStridedSlice S32x64 ![128, 0] a5 slices_S160x64_S32x64_128_0

/-- The student table projected by the first 128 rows of `W1`. -/
def projTab (a0 : S100000x128.Idx → EReal) (a5 : S160x64.Idx → EReal) : S100000x64.Idx → EReal :=
  (truncf .bf16
    (Host.dotGeneral (F := Ideal) (φ₁ := .f32) (φ₂ := .f32) dot_S100000x128_S128x64_S100000x64_1_0_0_1_n_n none
      (a0 : FVec Ideal S100000x128 .f32) (w1Top a5 : FVec Ideal S128x64 .f32))
    bitsLt_bf16_f32 : FVec Ideal S100000x64 .bf16)

/-- The bias row over the item table's rows. -/
def biasTab (a8 : S64.Idx → EReal) : S20000x64.Idx → EReal :=
  broadcastInDim S20000x64 ![0, 1] bcast_S1x64_S20000x64_0_1 (broadcastInDim S1x64 ![1] bcast_S64_S1x64_1 a8)

/-- The item table projected by `W2`, plus the bias. -/
def zTab (a1 : S20000x128.Idx → EReal) (a7 : S128x64.Idx → EReal) (a8 : S64.Idx → EReal) : S20000x64.Idx → EReal :=
  (addf (F := Ideal)
    (Host.dotGeneral (F := Ideal) (φ₁ := .f32) (φ₂ := .f32) dot_S20000x128_S128x64_S20000x64_1_0_0_1_n_n none
      (a1 : FVec Ideal S20000x128 .f32) (a7 : FVec Ideal S128x64 .f32))
    (biasTab a8 : FVec Ideal S20000x64 .f32) : FVec Ideal S20000x64 .f32)

/-- The zero the softplus compares with, over the table. -/
def zeroTab : FVec Ideal S20000x64 .f32 :=
  broadcastInDim S20000x64 ![] bcast_S_S20000x64 (constant (F := Ideal) S_ .f32 0x00000000#32)

/-- Softplus over a table, operation by operation. -/
def spChain (z : FVec Ideal S20000x64 .f32) : FVec Ideal S20000x64 .f32 :=
  select (cmpf .une (subf z zeroTab) (subf z zeroTab)) (addf z zeroTab)
    (addf (maximumf z zeroTab) (Host.log1p (Host.exp (Host.negf (Host.absf (subf z zeroTab))))))

/-- The item table's softplus. -/
def spTab (a1 : S20000x128.Idx → EReal) (a7 : S128x64.Idx → EReal) (a8 : S64.Idx → EReal) : S20000x64.Idx → EReal :=
  spChain (zTab a1 a7 a8)

/-- The softplus table with the offset column appended. -/
def yAug (y : S20000x64.Idx → EReal) (a4 : S20000x1.Idx → EReal) : S20000x65.Idx → EReal :=
  concatenate S20000x65 1 [⟨S20000x64, y⟩, ⟨S20000x1, a4⟩] concatenates_S20000x64_S20000x1_S20000x65_d1

/-- The gathered projection. -/
def g20 (a0 : S100000x128.Idx → EReal) (a5 : S160x64.Idx → EReal) (a2 : IVec S2x1000000 32) : S1000000x64.Idx → EReal :=
  Host.gather gather_S100000x64_S1000000x1_S1000000x64_1_0_n_n_0_1_164 (projTab a0 a5) (I0 a2)

/-- The gathered softplus table with its offset column. -/
def g27 (a1 : S20000x128.Idx → EReal) (a7 : S128x64.Idx → EReal) (a8 : S64.Idx → EReal) (a4 : S20000x1.Idx → EReal)
    (a2 : IVec S2x1000000 32) : S1000000x65.Idx → EReal :=
  Host.gather gather_S20000x65_S1000000x1_S1000000x65_1_0_n_n_0_1_165 (yAug (spTab a1 a7 a8) a4) (I1 a2)

end Cert.KernelIdeal.KHost

end
-- ==== Proof.KHostEq.lean ====
/-
  The three computed arrays the region reads, as the host operations' composition over the argument arrays.

  The contents of a buffer when the region is entered is the fold of the host operations over the launch memory; read
  at the buffer an operation writes, the fold is that operation's function of its operands' contents, and so on down to
  the arguments.  The composed terms are the ones named in the definitions file.
-/
import proofs.«137231_j76209899701047_2_alg».proof.Proof.Gen.KernelIdeal.Frame
import proofs.«137231_j76209899701047_2_alg».proof.Proof.KHostDefs
import Idealize.ShloMosaic.Lib.StableHlo.Run

noncomputable section

namespace Cert.KernelIdeal.KHost

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-- The last 32 rows of `W1`, as the region finds them. -/
theorem V_v5_eq :
    (V (F := Ideal) m c main_v5 : S32x64.Idx → EReal) = w1Bot (m ((c : Thread nD τ).loc main_arg5)) := by
  dsimp only [Gen.V]
  simp only [Gen.hostOps0, Gen.hostOps0_1, Gen.hostOps0_2, List.flatten_cons, List.flatten_nil, List.append_nil,
    List.cons_append, List.nil_append]
  after_results_simp
  rfl

set_option maxHeartbeats 400000 in
/-- The gathered projection, as the region finds it. -/
theorem V_v20_eq :
    (V (F := Ideal) m c main_v20 : S1000000x64.Idx → EReal)
      = g20 (m ((c : Thread nD τ).loc main_arg0)) (m ((c : Thread nD τ).loc main_arg5)) (m ((c : Thread nD τ).loc main_arg2)) := by
  dsimp only [Gen.V]
  simp only [Gen.hostOps0, Gen.hostOps0_1, Gen.hostOps0_2, List.flatten_cons, List.flatten_nil, List.append_nil,
    List.cons_append, List.nil_append]
  after_results_simp
  rfl

set_option maxHeartbeats 400000 in
/-- The gathered softplus table with its offset column, as the region finds it. -/
theorem V_v27_eq :
    (V (F := Ideal) m c main_v27 : S1000000x65.Idx → EReal)
      = g27 (m ((c : Thread nD τ).loc main_arg1)) (m ((c : Thread nD τ).loc main_arg7)) (m ((c : Thread nD τ).loc main_arg8))
          (m ((c : Thread nD τ).loc main_arg4)) (m ((c : Thread nD τ).loc main_arg2)) := by
  dsimp only [Gen.V]
  simp only [Gen.hostOps0, Gen.hostOps0_1, Gen.hostOps0_2, List.flatten_cons, List.flatten_nil, List.append_nil,
    List.cons_append, List.nil_append]
  after_results_simp
  rfl

end Cert.KernelIdeal.KHost

end
-- ==== Proof.LibRowGather.lean ====
/-
  A gather of whole rows read at an index.

  What `x[idx]` of a table `x : [N, C]` at an integer vector `idx : [E]` lowers to: a gather with offset_dims `[1]`,
  collapsed_slice_dims `[0]`, start_index_map `[0]`, slice sizes `[1, C]` and index_vector_dim 1 over the indices as
  `[E, 1]`.  Result element `(e, k)` is `x` at row `idx[e, 0]` — read as a signed integer and clamped into `[0, N − 1]`,
  as a gather clamps every start index — and column `k`.
-/
import Idealize.ShloMosaic.PureOps
import Idealize.ShloMosaic.Lib.ValueIdx

noncomputable section

namespace Cert.Lib

open Idealize.ShloMosaic Idealize.ShloMosaic.ValueIdx

variable {α : Type}

/-- Those dimension numbers for a table `[N, C]`, start indices `[E, 1]` and result `[E, C]`. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the table at the clamped row `idx[e, 0]` and column `k`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 (⟨min (idx (ix2 e 0)).toInt.toNat (N - 1), by omega⟩ : Fin N) k) := by
  unfold Host.gather
  congr 1
  funext a
  refine Fin.ext ?_
  show (rowDims N C E wf).start (ix2 e k) idx a + (rowDims N C E wf).batchCoord (ix2 e k) a
      + (rowDims N C E wf).offCoord (ix2 e k) a = _
  rw [GatherDims.batchCoord_eq_zero _ _ _ List.not_mem_nil, Nat.add_zero]
  have ha : a = (0 : Fin 2) ∨ a = (1 : Fin 2) := by
    rcases a with ⟨v, hv⟩
    have hv2 : v < 2 := hv
    rcases Nat.lt_or_ge v 1 with h | h
    · left; exact Fin.ext (by show v = 0; omega)
    · right; exact Fin.ext (by show v = 1; omega)
  rcases ha with rfl | rfl
  · rw [GatherDims.offCoord_eq_zero _ _ _
      (fun h => ((GatherDims.mem_sKept _ _).mp h).1 (List.mem_singleton.mpr rfl)), Nat.add_zero]
    unfold GatherDims.start
    rw [dif_pos (show (0 : Fin 2) ∈ (rowDims N C E wf).startIndexMap from List.mem_singleton.mpr rfl)]
    have hsi : (rowDims N C E wf).siIdx (ix2 e k) ⟨List.idxOf (0 : Fin 2) (rowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · unfold GatherDims.start
    rw [dif_neg (show (1 : Fin 2) ∉ (rowDims N C E wf).startIndexMap from
      fun h => absurd (congrArg Fin.val (List.mem_singleton.mp h)) Nat.one_ne_zero), Nat.zero_add]
    rfl

end Cert.Lib

end
-- ==== Proof.KHostRead.lean ====
/-
  The host side's arrays read index by index.

  Each piece of the host computation is read at one index through the operation's own index lemma: a gather of whole rows
  reads the table at the clamped row; a plain product is the contraction's sum; a slice of rows shifts the row; the bias
  broadcasts read the bias at the column; softplus is pointwise; the appended column is read in the second piece.
-/
import proofs.«137231_j76209899701047_2_alg».proof.Proof.KHostDefs
import proofs.«137231_j76209899701047_2_alg».proof.Proof.Spec
import proofs.«137231_j76209899701047_2_alg».proof.Proof.LibRowGather
import proofs.«137231_j76209899701047_2_alg».proof.Proof.LibPlainDot
import Idealize.ShloMosaic.Lib.ValueLayout

noncomputable section

namespace Cert.KernelIdeal.KHost

open Cert.KernelIdeal Cert.KernelIdeal.Gen
open Idealize.ShloMosaic Idealize.ShloMosaic.ValueIdx

/-! ## The slices of `W1` -/

/-- Row `k` of the first 128 rows of `W1` is row `k` of `W1`. -/
theorem w1Top_apply (a5 : S160x64.Idx → EReal) (k : Fin 128) (j : Fin 64) :
    w1Top a5 (ix2 k j) = a5 (ix2 (⟨k.val, by omega⟩ : Fin 160) j) :=
  slice2_axis0_apply 0 a5 slices_S160x64_S128x64_0_0 k j ⟨k.val, by omega⟩ (Nat.zero_add _).symm

/-- Row `k` of the last 32 rows of `W1` is row `128 + k` of `W1`. -/
theorem w1Bot_apply (a5 : S160x64.Idx → EReal) (k : Fin 32) (j : Fin 64) :
    w1Bot a5 (ix2 k j) = a5 (ix2 (⟨128 + k.val, by omega⟩ : Fin 160) j) :=
  slice2_axis0_apply 128 a5 slices_S160x64_S32x64_128_0 k j ⟨128 + k.val, by omega⟩ rfl

/-! ## The projected student table -/

/-- The projected table at `(r, j)` is the contraction of student row `r` with column `j` of the first 128 rows of `W1`. -/
theorem projTab_apply (a0 : S100000x128.Idx → EReal) (a5 : S160x64.Idx → EReal) (r : Fin 100000) (j : Fin 64) :
    projTab a0 a5 (ix2 r j) = Cert.Spec.proj a0 a5 r j := by
  unfold projTab Cert.Spec.proj
  refine (truncf_apply (φ := .f32) (ψ := .bf16) (s := S100000x64)
    (Host.dotGeneral (F := Ideal) (φ₁ := .f32) (φ₂ := .f32) dot_S100000x128_S128x64_S100000x64_1_0_0_1_n_n none a0 (w1Top a5))
    bitsLt_bf16_f32 (ix2 r j)).trans ?_
  refine (Cert.Lib.dotGeneral_plain_apply (M := 100000) (K := 128) (N := 64) none .single a0 (w1Top a5) r j).trans ?_
  exact Finset.sum_congr rfl fun k _ => congrArg (a0 (ix2 r k) * ·) (w1Top_apply a5 k j)

/-! ## The item table: product, bias, softplus, offset column -/

/-- The bias broadcast over the rows reads the bias at the column. -/
theorem biasTab_apply (a8 : S64.Idx → EReal) (r : Fin 20000) (j : Fin 64) : biasTab a8 (ix2 r j) = a8 (ix1 j) := by
  unfold biasTab
  refine (broadcastInDim_apply _ _ _ (ix2 r j) (ix2 (0 : Fin 1) j) fun a => ?_).trans ?_
  · match a with
    | ⟨0, _⟩ => rfl
    | ⟨1, _⟩ => rfl
  · refine broadcastInDim_apply _ _ a8 (ix2 (0 : Fin 1) j) (ix1 j) fun a => ?_
    match a with
    | ⟨0, _⟩ => rfl

/-- The item table's pre-activation at `(r, j)`. -/
theorem zTab_apply (a1 : S20000x128.Idx → EReal) (a7 : S128x64.Idx → EReal) (a8 : S64.Idx → EReal) (r : Fin 20000) (j : Fin 64) :
    zTab a1 a7 a8 (ix2 r j) = Cert.Spec.zz a1 a7 a8 r j := by
  unfold zTab Cert.Spec.zz
  refine (addf_apply _ _ _).trans ?_
  exact congrArg₂ (· + ·)
    (Cert.Lib.dotGeneral_plain_apply (M := 20000) (K := 128) (N := 64) none .single a1 a7 r j) (biasTab_apply a8 r j)

/-- Softplus over a table is the scalar softplus at each index. -/
theorem spChain_apply (z : FVec Ideal S20000x64 .f32) (i : S20000x64.Idx) : spChain z i = Cert.Spec.spS (z i) := rfl

/-- The item table's softplus at `(r, j)`. -/
theorem spTab_apply (a1 : S20000x128.Idx → EReal) (a7 : S128x64.Idx → EReal) (a8 : S64.Idx → EReal) (r : Fin 20000) (j : Fin 64) :
    spTab a1 a7 a8 (ix2 r j) = Cert.Spec.spS (Cert.Spec.zz a1 a7 a8 r j) :=
  (spChain_apply _ _).trans (congrArg Cert.Spec.spS (zTab_apply a1 a7 a8 r j))

/-- A column below 64 of the augmented table is the table's. -/
theorem yAug_apply_lt (y : S20000x64.Idx → EReal) (a4 : S20000x1.Idx → EReal) (r : Fin 20000) (j : Fin 64) :
    yAug y a4 (ix2 r (⟨j.val, by omega⟩ : Fin 65)) = y (ix2 r j) := by
  unfold yAug
  refine concatenate_pair_apply_left (1 : Fin 2) y a4 _ (ix2 r (⟨j.val, by omega⟩ : Fin 65)) rfl (ix2 r j) fun b => ?_
  match b with
  | ⟨0, _⟩ => rfl
  | ⟨1, _⟩ => rfl

/-- Column 64 of the augmented table is the offset column. -/
theorem yAug_apply_last (y : S20000x64.Idx → EReal) (a4 : S20000x1.Idx → EReal) (r : Fin 20000) :
    yAug y a4 (ix2 r (⟨64, by omega⟩ : Fin 65)) = a4 (ix2 r 0) := by
  unfold yAug
  refine concatenate_pair_apply_right (1 : Fin 2) y a4 _ (ix2 r (⟨64, by omega⟩ : Fin 65)) rfl rfl (ix2 r 0)
    (fun b hb => ?_) rfl
  match b, hb with
  | ⟨0, _⟩, _ => rfl
  | ⟨1, _⟩, hb => exact absurd rfl hb

/-! ## The two gathers -/

/-- The gathered projection at `(e, j)`: the projection of the student row edge `e` selects. -/
theorem g20_apply (a0 : S100000x128.Idx → EReal) (a5 : S160x64.Idx → EReal) (a2 : IVec S2x1000000 32)
    (e : Fin 1000000) (j : Fin 64) :
    g20 a0 a5 a2 (ix2 e j) = Cert.Spec.proj a0 a5 (Cert.Spec.row0 (I0 a2) e) j := by
  unfold g20
  refine (Cert.Lib.gather_rows_apply (N := 100000) (C := 64) (E := 1000000) (by omega)
    gather_S100000x64_S1000000x1_S1000000x64_1_0_n_n_0_1_164_wf (projTab a0 a5) (I0 a2) e j).trans ?_
  exact projTab_apply a0 a5 (Cert.Spec.row0 (I0 a2) e) j

/-- The gathered augmented table at `(e, j)`, `j < 64`: softplus of the item row edge `e` selects. -/
theorem g27_apply_lt (a1 : S20000x128.Idx → EReal) (a7 : S128x64.Idx → EReal) (a8 : S64.Idx → EReal)
    (a4 : S20000x1.Idx → EReal) (a2 : IVec S2x1000000 32) (e : Fin 1000000) (j : Fin 64) :
    g27 a1 a7 a8 a4 a2 (ix2 e (⟨j.val, by omega⟩ : Fin 65))
      = Cert.Spec.spS (Cert.Spec.zz a1 a7 a8 (Cert.Spec.row1 (I1 a2) e) j) := by
  unfold g27
  refine (Cert.Lib.gather_rows_apply (N := 20000) (C := 65) (E := 1000000) (by omega)
    gather_S20000x65_S1000000x1_S1000000x65_1_0_n_n_0_1_165_wf (yAug (spTab a1 a7 a8) a4) (I1 a2) e
    (⟨j.val, by omega⟩ : Fin 65)).trans ?_
  refine (yAug_apply_lt (spTab a1 a7 a8) a4 (Cert.Spec.row1 (I1 a2) e) j).trans ?_
  exact spTab_apply a1 a7 a8 (Cert.Spec.row1 (I1 a2) e) j

/-- The gathered augmented table at `(e, 64)`: the offset of the item row edge `e` selects. -/
theorem g27_apply_last (a1 : S20000x128.Idx → EReal) (a7 : S128x64.Idx → EReal) (a8 : S64.Idx → EReal)
    (a4 : S20000x1.Idx → EReal) (a2 : IVec S2x1000000 32) (e : Fin 1000000) :
    g27 a1 a7 a8 a4 a2 (ix2 e (⟨64, by omega⟩ : Fin 65)) = a4 (ix2 (Cert.Spec.row1 (I1 a2) e) 0) := by
  unfold g27
  refine (Cert.Lib.gather_rows_apply (N := 20000) (C := 65) (E := 1000000) (by omega)
    gather_S20000x65_S1000000x1_S1000000x65_1_0_n_n_0_1_165_wf (yAug (spTab a1 a7 a8) a4) (I1 a2) e
    (⟨64, by omega⟩ : Fin 65)).trans ?_
  exact yAug_apply_last (spTab a1 a7 a8) a4 (Cert.Spec.row1 (I1 a2) e)

end Cert.KernelIdeal.KHost

end
-- ==== Proof.KHost.lean ====
/-
  What the region's windows read, index by index, in the specification's words.

  The gathered projection at `(e, j)` is the projection of the student row edge `e` selects; the gathered item table at
  `(e, j)`, `j < 64`, is the softplus of the item row's pre-activation, and at `(e, 64)` the row's offset; the last array is
  the last 32 rows of `W1`.  Each is the array's composed term (the equations file) read through the index lemmas (the
  reading file).
-/
import proofs.«137231_j76209899701047_2_alg».proof.Proof.KHostEq
import proofs.«137231_j76209899701047_2_alg».proof.Proof.KHostRead

noncomputable section

namespace Cert.KernelIdeal.KHost

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-- The gathered projection the region reads, at `(e, j)`. -/
theorem V_v20_apply (e : Fin 1000000) (j : Fin 64) :
    (V (F := Ideal) m c main_v20 : S1000000x64.Idx → EReal) (ix2 e j)
      = Cert.Spec.proj (m ((c : Thread nD τ).loc main_arg0)) (m ((c : Thread nD τ).loc main_arg5))
          (Cert.Spec.row0 (I0 (m ((c : Thread nD τ).loc main_arg2))) e) j :=
  (congrFun (V_v20_eq m c) (ix2 e j)).trans (g20_apply _ _ _ e j)

/-- The gathered item table the region reads, at `(e, j)` with `j < 64`. -/
theorem V_v27_apply_lt (e : Fin 1000000) (j : Fin 64) :
    (V (F := Ideal) m c main_v27 : S1000000x65.Idx → EReal) (ix2 e (⟨j.val, by omega⟩ : Fin 65))
      = Cert.Spec.spS (Cert.Spec.zz (m ((c : Thread nD τ).loc main_arg1)) (m ((c : Thread nD τ).loc main_arg7))
          (m ((c : Thread nD τ).loc main_arg8)) (Cert.Spec.row1 (I1 (m ((c : Thread nD τ).loc main_arg2))) e) j) :=
  (congrFun (V_v27_eq m c) (ix2 e (⟨j.val, by omega⟩ : Fin 65))).trans (g27_apply_lt _ _ _ _ _ e j)

/-- The gathered item table the region reads, at `(e, 64)`. -/
theorem V_v27_apply_last (e : Fin 1000000) :
    (V (F := Ideal) m c main_v27 : S1000000x65.Idx → EReal) (ix2 e (⟨64, by omega⟩ : Fin 65))
      = (m ((c : Thread nD τ).loc main_arg4)) (ix2 (Cert.Spec.row1 (I1 (m ((c : Thread nD τ).loc main_arg2))) e) 0) :=
  (congrFun (V_v27_eq m c) (ix2 e (⟨64, by omega⟩ : Fin 65))).trans (g27_apply_last _ _ _ _ _ e)

/-- The last 32 rows of `W1` the region reads, at `(k, j)`. -/
theorem V_v5_apply (k : Fin 32) (j : Fin 64) :
    (V (F := Ideal) m c main_v5 : S32x64.Idx → EReal) (ix2 k j)
      = (m ((c : Thread nD τ).loc main_arg5)) (ix2 (⟨128 + k.val, by omega⟩ : Fin 160) j) :=
  (congrFun (V_v5_eq m c) (ix2 k j)).trans (w1Bot_apply _ k j)

end Cert.KernelIdeal.KHost

end
-- ==== Proof.RefRun.lean ====
/-
  The reference program's run: @main is a straight line of host operations once its calls are unfolded
  (each of `elu`, `_where`, `_where_0`, `softplus` is a list of pointwise operations over the call's own buffers),
  so every weakly fair execution terminates with each buffer at the operations' fold over the launch contents.
-/
import proofs.«137231_j76209899701047_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 76 operations, in order, each call replaced by its callee's operations over the call's buffer record:
    27 of @main's own up to the pre-activation, the 15 of `elu` (its two `where`s inline), 4 more of @main's up to the
    item projection, the 14 of `softplus`, and @main's last 16. -/
abbrev ops : List (HloOp τ sig (Elt F)) :=
  [ unary main_arg2 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    nullary main_c (constantI S_ 32 0#32),
    unary main_c main_v2 (broadcastInDim S1000000 ![] bcast_S_S1000000 : (⟨S_, .i32⟩ : BufTy).Contents (Elt F) → (⟨S1000000, .i32⟩ : BufTy).Contents (Elt F)),
    binary main_v1 main_v2 main_v3 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 100000#32),
    unary main_c_0 main_v4 (broadcastInDim S1000000 ![] bcast_S_S1000000 : (⟨S_, .i32⟩ : BufTy).Contents (Elt F) → (⟨S1000000, .i32⟩ : BufTy).Contents (Elt F)),
    binary main_v1 main_v4 main_v5 (addi : (⟨S1000000, .i32⟩ : BufTy).Contents (Elt F) → (⟨S1000000, .i32⟩ : BufTy).Contents (Elt F) → (⟨S1000000, .i32⟩ : BufTy).Contents (Elt F)),
    ternary main_v3 main_v5 main_v1 main_v6 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v6 main_v7 (broadcastInDim S1000000x1 ![0] bcast_S1000000_S1000000x1_0 : (⟨S1000000, .i32⟩ : BufTy).Contents (Elt F) → (⟨S1000000x1, .i32⟩ : BufTy).Contents (Elt F)),
    binary main_arg0 main_v7 main_v8 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    unary main_arg2 main_v9 ((extractStridedSlice S1x1000000 ![1, 0] · slices_S2x1000000_S1x1000000_1_0) : (⟨S2x1000000, .i32⟩ : BufTy).Contents (Elt F) → (⟨S1x1000000, .i32⟩ : BufTy).Contents (Elt F)),
    reshape main_v9 main_v10 rfl shapeCasts_S1x1000000_S1000000,
    nullary main_c_1 (constantI S_ 32 0#32),
    unary main_c_1 main_v11 (broadcastInDim S1000000 ![] bcast_S_S1000000 : (⟨S_, .i32⟩ : BufTy).Contents (Elt F) → (⟨S1000000, .i32⟩ : BufTy).Contents (Elt F)),
    binary main_v10 main_v11 main_v12 (cmpi .slt : (⟨S1000000, .i32⟩ : BufTy).Contents (Elt F) → (⟨S1000000, .i32⟩ : BufTy).Contents (Elt F) → (⟨S1000000, .i1⟩ : BufTy).Contents (Elt F)),
    nullary main_c_2 (constantI S_ 32 20000#32),
    unary main_c_2 main_v13 (broadcastInDim S1000000 ![] bcast_S_S1000000 : (⟨S_, .i32⟩ : BufTy).Contents (Elt F) → (⟨S1000000, .i32⟩ : BufTy).Contents (Elt F)),
    binary main_v10 main_v13 main_v14 (addi : (⟨S1000000, .i32⟩ : BufTy).Contents (Elt F) → (⟨S1000000, .i32⟩ : BufTy).Contents (Elt F) → (⟨S1000000, .i32⟩ : BufTy).Contents (Elt F)),
    ternary main_v12 main_v14 main_v10 main_v15 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v15 main_v16 (broadcastInDim S1000000x1 ![0] bcast_S1000000_S1000000x1_0 : (⟨S1000000, .i32⟩ : BufTy).Contents (Elt F) → (⟨S1000000x1, .i32⟩ : BufTy).Contents (Elt F)),
    binary main_arg1 main_v16 main_v17 ((fun x i => Host.gather gather_S20000x128_S1000000x1_S1000000x128_1_0_n_n_0_1_1128 x i) : (⟨S20000x128, .f32⟩ : BufTy).Contents (Elt F) → (⟨S1000000x1, .i32⟩ : BufTy).Contents (Elt F) → (⟨S1000000x128, .f32⟩ : BufTy).Contents (Elt F)),
    binary main_v8 main_arg3 main_v18 ((fun a b => concatenate S1000000x160 1 [⟨S1000000x128, a⟩, ⟨S1000000x32, b⟩] concatenates_S1000000x128_S1000000x32_S1000000x160_d1) : (⟨S1000000x128, .f32⟩ : BufTy).Contents (Elt F) → (⟨S1000000x32, .f32⟩ : BufTy).Contents (Elt F) → (⟨S1000000x160, .f32⟩ : BufTy).Contents (Elt F)),
    binary main_v18 main_arg5 main_v19 ((fun l r => Host.dotGeneral dot_S1000000x160_S160x64_S1000000x64_1_0_0_1_n_n none l r) : (⟨S1000000x160, .f32⟩ : BufTy).Contents (Elt F) → (⟨S160x64, .f32⟩ : BufTy).Contents (Elt F) → (⟨S1000000x64, .f32⟩ : BufTy).Contents (Elt F)),
    unary main_arg6 main_v20 (broadcastInDim S1x64 ![1] bcast_S64_S1x64_1 : (⟨S64, .f32⟩ : BufTy).Contents (Elt F) → (⟨S1x64, .f32⟩ : BufTy).Contents (Elt F)),
    unary main_v20 main_v21 (broadcastInDim S1000000x64 ![0, 1] bcast_S1x64_S1000000x64_0_1 : (⟨S1x64, .f32⟩ : BufTy).Contents (Elt F) → (⟨S1000000x64, .f32⟩ : BufTy).Contents (Elt F)),
    binary main_v19 main_v21 main_v22 (addf : (⟨S1000000x64, .f32⟩ : BufTy).Contents (Elt F) → (⟨S1000000x64, .f32⟩ : BufTy).Contents (Elt F) → (⟨S1000000x64, .f32⟩ : BufTy).Contents (Elt F)),
    TRef.nullary main_call0.cst (constant S_ .f32 0x00000000#32),
    TRef.unary main_call0.cst main_call0.v0 (broadcastInDim S1000000x64 ![] bcast_S_S1000000x64),
    TRef.binary (TRef.of (T := ⟨S1000000x64, .f32⟩) main_v22) main_call0.v0 main_call0.v1 (cmpf .ogt),
    TRef.nullary main_call0.cst_0 (constant S_ .f32 0x00000000#32),
    TRef.unary main_call0.cst_0 main_call0.v2 (broadcastInDim S1000000x64 ![] bcast_S_S1000000x64),
    TRef.binary (TRef.of (T := ⟨S1000000x64, .f32⟩) main_v22) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S1000000x64 ![] bcast_S_S1000000x64),
    TRef.ternary main_call0.v3 main_call0.call0.v1 (TRef.of (T := ⟨S1000000x64, .f32⟩) main_v22) main_call0.call0.v2 select,
    TRef.unary main_call0.call0.v2 main_call0.v5 Host.expm1,
    TRef.nullary main_call0.cst_2 (constant S_ .f32 0x3F800000#32),
    TRef.unary main_call0.cst_2 main_call0.v6 (broadcastInDim S1000000x64 ![] bcast_S_S1000000x64),
    TRef.binary main_call0.v6 main_call0.v5 main_call0.v7 mulf,
    TRef.ternary main_call0.v1 (TRef.of (T := ⟨S1000000x64, .f32⟩) main_v22) main_call0.v7 main_call0.call1.v0 select,
    binary main_v17 main_arg7 main_v24 ((fun l r => Host.dotGeneral dot_S1000000x128_S128x64_S1000000x64_1_0_0_1_n_n none l r) : (⟨S1000000x128, .f32⟩ : BufTy).Contents (Elt F) → (⟨S128x64, .f32⟩ : BufTy).Contents (Elt F) → (⟨S1000000x64, .f32⟩ : BufTy).Contents (Elt F)),
    unary main_arg8 main_v25 (broadcastInDim S1x64 ![1] bcast_S64_S1x64_1 : (⟨S64, .f32⟩ : BufTy).Contents (Elt F) → (⟨S1x64, .f32⟩ : BufTy).Contents (Elt F)),
    unary main_v25 main_v26 (broadcastInDim S1000000x64 ![0, 1] bcast_S1x64_S1000000x64_0_1 : (⟨S1x64, .f32⟩ : BufTy).Contents (Elt F) → (⟨S1000000x64, .f32⟩ : BufTy).Contents (Elt F)),
    binary main_v24 main_v26 main_v27 (addf : (⟨S1000000x64, .f32⟩ : BufTy).Contents (Elt F) → (⟨S1000000x64, .f32⟩ : BufTy).Contents (Elt F) → (⟨S1000000x64, .f32⟩ : BufTy).Contents (Elt F)),
    TRef.nullary main_call1.cst (constant S_ .f32 0x00000000#32),
    TRef.unary main_call1.cst main_call1.v0 (broadcastInDim S1000000x64 ![] bcast_S_S1000000x64),
    TRef.binary (TRef.of (T := ⟨S1000000x64, .f32⟩) main_v27) main_call1.v0 main_call1.v1 maximumf,
    TRef.unary main_call1.cst main_call1.v2 (broadcastInDim S1000000x64 ![] bcast_S_S1000000x64),
    TRef.binary (TRef.of (T := ⟨S1000000x64, .f32⟩) main_v27) main_call1.v2 main_call1.v3 subf,
    TRef.binary main_call1.v3 main_call1.v3 main_call1.v4 (cmpf .une),
    TRef.unary main_call1.cst main_call1.v5 (broadcastInDim S1000000x64 ![] bcast_S_S1000000x64),
    TRef.binary (TRef.of (T := ⟨S1000000x64, .f32⟩) main_v27) main_call1.v5 main_call1.v6 addf,
    TRef.unary main_call1.v3 main_call1.v7 Host.absf,
    TRef.unary main_call1.v7 main_call1.v8 Host.negf,
    TRef.unary main_call1.v8 main_call1.v9 Host.exp,
    TRef.unary main_call1.v9 main_call1.v10 Host.log1p,
    TRef.binary main_call1.v1 main_call1.v10 main_call1.v11 addf,
    TRef.ternary main_call1.v4 main_call1.v6 main_call1.v11 main_call1.v12 select,
    binary main_v23 main_v28 main_v29 (mulf : (⟨S1000000x64, .f32⟩ : BufTy).Contents (Elt F) → (⟨S1000000x64, .f32⟩ : BufTy).Contents (Elt F) → (⟨S1000000x64, .f32⟩ : BufTy).Contents (Elt F)),
    nullary main_cst (constant S_ .f32 0x00000000#32),
    binary main_v29 main_cst main_v30 ((fun x v => Host.reduceAdd x v reducesTo_S1000000x64_S1000000_d1 h_S_) : (⟨S1000000x64, .f32⟩ : BufTy).Contents (Elt F) → (⟨S_, .f32⟩ : BufTy).Contents (Elt F) → (⟨S1000000, .f32⟩ : BufTy).Contents (Elt F)),
    unary main_v30 main_v31 (broadcastInDim S1000000x1 ![0] bcast_S1000000_S1000000x1_0 : (⟨S1000000, .f32⟩ : BufTy).Contents (Elt F) → (⟨S1000000x1, .f32⟩ : BufTy).Contents (Elt F)),
    unary main_arg2 main_v32 ((extractStridedSlice S1x1000000 ![1, 0] · slices_S2x1000000_S1x1000000_1_0) : (⟨S2x1000000, .i32⟩ : BufTy).Contents (Elt F) → (⟨S1x1000000, .i32⟩ : BufTy).Contents (Elt F)),
    reshape main_v32 main_v33 rfl shapeCasts_S1x1000000_S1000000,
    nullary main_c_3 (constantI S_ 32 0#32),
    unary main_c_3 main_v34 (broadcastInDim S1000000 ![] bcast_S_S1000000 : (⟨S_, .i32⟩ : BufTy).Contents (Elt F) → (⟨S1000000, .i32⟩ : BufTy).Contents (Elt F)),
    binary main_v33 main_v34 main_v35 (cmpi .slt : (⟨S1000000, .i32⟩ : BufTy).Contents (Elt F) → (⟨S1000000, .i32⟩ : BufTy).Contents (Elt F) → (⟨S1000000, .i1⟩ : BufTy).Contents (Elt F)),
    nullary main_c_4 (constantI S_ 32 20000#32),
    unary main_c_4 main_v36 (broadcastInDim S1000000 ![] bcast_S_S1000000 : (⟨S_, .i32⟩ : BufTy).Contents (Elt F) → (⟨S1000000, .i32⟩ : BufTy).Contents (Elt F)),
    binary main_v33 main_v36 main_v37 (addi : (⟨S1000000, .i32⟩ : BufTy).Contents (Elt F) → (⟨S1000000, .i32⟩ : BufTy).Contents (Elt F) → (⟨S1000000, .i32⟩ : BufTy).Contents (Elt F)),
    ternary main_v35 main_v37 main_v33 main_v38 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v38 main_v39 (broadcastInDim S1000000x1 ![0] bcast_S1000000_S1000000x1_0 : (⟨S1000000, .i32⟩ : BufTy).Contents (Elt F) → (⟨S1000000x1, .i32⟩ : BufTy).Contents (Elt F)),
    binary main_arg4 main_v39 main_v40 ((fun x i => Host.gather gather_S20000x1_S1000000x1_S1000000x1_1_0_n_n_0_1_11 x i) : (⟨S20000x1, .f32⟩ : BufTy).Contents (Elt F) → (⟨S1000000x1, .i32⟩ : BufTy).Contents (Elt F) → (⟨S1000000x1, .f32⟩ : BufTy).Contents (Elt F)),
    binary main_v31 main_v40 main_v41 (addf : (⟨S1000000x1, .f32⟩ : BufTy).Contents (Elt F) → (⟨S1000000x1, .f32⟩ : BufTy).Contents (Elt F) → (⟨S1000000x1, .f32⟩ : BufTy).Contents (Elt F)) ]

set_option maxRecDepth 8192 in
set_option maxHeartbeats 1600000 in
/-- @main is that straight line: the callees' definitions unfold at their calls, and sequencing reassociates. -/
theorem main_eq (c : Dev nD) : main (F := F) c = seq ops := by
  simp only [main, fn_elu.body, fn_where.body, fn_where_0.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    binary_bufs_sub .., unary_bufs_sub .., unary_bufs_sub .., binary_bufs_sub .., nullary_bufs_sub .., unary_bufs_sub ..,
    binary_bufs_sub .., unary_bufs_sub .., binary_bufs_sub .., binary_bufs_sub .., unary_bufs_sub .., binary_bufs_sub ..,
    unary_bufs_sub .., unary_bufs_sub .., unary_bufs_sub .., unary_bufs_sub .., binary_bufs_sub .., ternary_bufs_sub ..,
    binary_bufs_sub .., nullary_bufs_sub .., binary_bufs_sub .., unary_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub ..⟩

set_option maxRecDepth 8192 in
set_option maxHeartbeats 1600000 in
/-- From any memory with zero counters every weakly fair execution of @main terminates, and every buffer ends at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerm.lean ====
/-
  The reference program's result as one term of the argument arrays: the operations of @main composed, with the two
  index chains, the pre-activation, the item projection and the two activations named.  For every float instance.
-/
import proofs.«137231_j76209899701047_2_alg».proof.Proof.Gen.ReferenceIdeal

noncomputable section

namespace Cert.ReferenceIdeal.RefValue

open Cert.ReferenceIdeal Cert.ReferenceIdeal.Gen Idealize.ShloMosaic

variable {F : FTy → Type} [FloatOps F]

/-- Row 0 of the edge table, as a vector: the slice of that row, reshaped. -/
def erow0 (a2 : IVec S2x1000000 32) : IVec S1000000 32 :=
  shapeCast S1000000 (extractStridedSlice S1x1000000 ![0, 0] a2 slices_S2x1000000_S1x1000000_0_0) shapeCasts_S1x1000000_S1000000

/-- Row 1 of the edge table, as a vector. -/
def erow1 (a2 : IVec S2x1000000 32) : IVec S1000000 32 :=
  shapeCast S1000000 (extractStridedSlice S1x1000000 ![1, 0] a2 slices_S2x1000000_S1x1000000_1_0) shapeCasts_S1x1000000_S1000000

/-- A vector of indices, each negative one moved up by `n` (a negative index counts from the table's end), as a
    column of start indices. -/
def wrapCol (n : BitVec 32) (v : IVec S1000000 32) : IVec S1000000x1 32 :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 n))) v)

/-- The start indices into the student table: row 0 of the edge table, wrapped by the table's 100000 rows. -/
def I0 (a2 : IVec S2x1000000 32) : IVec S1000000x1 32 := wrapCol 100000#32 (erow0 a2)

/-- The start indices into the item tables: row 1 of the edge table, wrapped by the tables' 20000 rows. -/
def I1 (a2 : IVec S2x1000000 32) : IVec S1000000x1 32 := wrapCol 20000#32 (erow1 a2)

/-- A scalar constant over the activations' shape. -/
def splat (b : BitVec 32) : FVec F S1000000x64 .f32 :=
  broadcastInDim S1000000x64 ![] bcast_S_S1000000x64 (constant S_ .f32 b)

/-- A bias vector over the activations' shape: `[64] → [1, 64] → [1000000, 64]`. -/
def biasRows (b : FVec F S64 .f32) : FVec F S1000000x64 .f32 :=
  broadcastInDim S1000000x64 ![0, 1] bcast_S1x64_S1000000x64_0_1 (broadcastInDim S1x64 ![1] bcast_S64_S1x64_1 b)

/-- The pre-activation: the gathered student rows beside the edge features, times `W1`, plus the bias. -/
def lin (a0 : FVec F S100000x128 .f32) (J0 : IVec S1000000x1 32) (a3 : FVec F S1000000x32 .f32) (a5 : FVec F S160x64 .f32)
    (a6 : FVec F S64 .f32) : FVec F S1000000x64 .f32 :=
  addf
    (Host.dotGeneral dot_S1000000x160_S160x64_S1000000x64_1_0_0_1_n_n none
      (concatenate S1000000x160 1
        [⟨S1000000x128, Host.gather gather_S100000x128_S1000000x1_S1000000x128_1_0_n_n_0_1_1128 a0 J0⟩, ⟨S1000000x32, a3⟩]
        concatenates_S1000000x128_S1000000x32_S1000000x160_d1)
      a5)
    (biasRows a6)

/-- The item projection: the gathered item rows times `W2`, plus the bias. -/
def zlin (a1 : FVec F S20000x128 .f32) (J1 : IVec S1000000x1 32) (a7 : FVec F S128x64 .f32) (a8 : FVec F S64 .f32) :
    FVec F S1000000x64 .f32 :=
  addf
    (Host.dotGeneral dot_S1000000x128_S128x64_S1000000x64_1_0_0_1_n_n none
      (Host.gather gather_S20000x128_S1000000x1_S1000000x128_1_0_n_n_0_1_1128 a1 J1) a7)
    (biasRows a8)

/-- `elu` as the reference spells it: `x` where positive, else `1 · expm1 (where (x > 0) 0 x)`. -/
def eluV (x : FVec F S1000000x64 .f32) : FVec F S1000000x64 .f32 :=
  select (cmpf .ogt x (splat 0x00000000#32)) x
    (mulf (splat 0x3F800000#32)
      (Host.expm1
        (select (cmpf .ogt x (splat 0x00000000#32))
          (broadcastInDim S1000000x64 ![] bcast_S_S1000000x64 (id (constant S_ .f32 0x00000000#32))) x)))

/-- `softplus` as the reference spells it: `logaddexp z 0` with its guard. -/
def spV (z : FVec F S1000000x64 .f32) : FVec F S1000000x64 .f32 :=
  select (cmpf .une (subf z (splat 0x00000000#32)) (subf z (splat 0x00000000#32))) (addf z (splat 0x00000000#32))
    (addf (maximumf z (splat 0x00000000#32))
      (Host.log1p (Host.exp (Host.negf (Host.absf (subf z (splat 0x00000000#32)))))))

/-- The reference's result: the row sums of the activations' products, as a column, plus the gathered offsets. -/
def outV (a0 : FVec F S100000x128 .f32) (a1 : FVec F S20000x128 .f32) (J0 J1 : IVec S1000000x1 32)
    (a3 : FVec F S1000000x32 .f32) (a4 : FVec F S20000x1 .f32) (a5 : FVec F S160x64 .f32) (a6 : FVec F S64 .f32)
    (a7 : FVec F S128x64 .f32) (a8 : FVec F S64 .f32) : FVec F S1000000x1 .f32 :=
  addf
    (broadcastInDim S1000000x1 ![0] bcast_S1000000_S1000000x1_0
      (Host.reduceAdd (mulf (eluV (lin a0 J0 a3 a5 a6)) (spV (zlin a1 J1 a7 a8))) (constant S_ .f32 0x00000000#32)
        reducesTo_S1000000x64_S1000000_d1 h_S_))
    (Host.gather gather_S20000x1_S1000000x1_S1000000x1_1_0_n_n_0_1_11 a4 J1)

end Cert.ReferenceIdeal.RefValue

end
-- ==== Proof.RefFold.lean ====
/-
  The fold of the reference's operations read at the result buffer and at the argument buffers: the result is the
  composed term `outV` of the arguments' contents, and no operation writes an argument.
-/
import proofs.«137231_j76209899701047_2_alg».proof.Proof.RefRun
import proofs.«137231_j76209899701047_2_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduceAdd Host.gather in
set_option maxRecDepth 8192 in
set_option maxHeartbeats 8000000 in
/-- The fold at the result buffer: each operation's result is its function of its operands' contents, so the last
    addition's result is the composed term. The gathers and the row sum stay folded. -/
theorem out_eq (V : Valuation τ sig (Elt F)) :
    after ops V (main_v41 : DevRef τ sig)
      = outV (V (main_arg0 : DevRef τ sig)) (V (main_arg1 : DevRef τ sig))
          (I0 (V (main_arg2 : DevRef τ sig))) (I1 (V (main_arg2 : DevRef τ sig)))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  rfl

attribute [local irreducible] Host.reduceAdd Host.gather in
set_option maxRecDepth 8192 in
set_option maxHeartbeats 4000000 in
theorem arg0_eq (V : Valuation τ sig (Elt F)) :
    after ops V (main_arg0 : DevRef τ sig) = V (main_arg0 : DevRef τ sig) := by
  after_results_simp

attribute [local irreducible] Host.reduceAdd Host.gather in
set_option maxRecDepth 8192 in
set_option maxHeartbeats 4000000 in
theorem arg1_eq (V : Valuation τ sig (Elt F)) :
    after ops V (main_arg1 : DevRef τ sig) = V (main_arg1 : DevRef τ sig) := by
  after_results_simp

attribute [local irreducible] Host.reduceAdd Host.gather in
set_option maxRecDepth 8192 in
set_option maxHeartbeats 4000000 in
theorem arg2_eq (V : Valuation τ sig (Elt F)) :
    after ops V (main_arg2 : DevRef τ sig) = V (main_arg2 : DevRef τ sig) := by
  after_results_simp

attribute [local irreducible] Host.reduceAdd Host.gather in
set_option maxRecDepth 8192 in
set_option maxHeartbeats 4000000 in
theorem arg3_eq (V : Valuation τ sig (Elt F)) :
    after ops V (main_arg3 : DevRef τ sig) = V (main_arg3 : DevRef τ sig) := by
  after_results_simp

attribute [local irreducible] Host.reduceAdd Host.gather in
set_option maxRecDepth 8192 in
set_option maxHeartbeats 4000000 in
theorem arg4_eq (V : Valuation τ sig (Elt F)) :
    after ops V (main_arg4 : DevRef τ sig) = V (main_arg4 : DevRef τ sig) := by
  after_results_simp

attribute [local irreducible] Host.reduceAdd Host.gather in
set_option maxRecDepth 8192 in
set_option maxHeartbeats 4000000 in
theorem arg5_eq (V : Valuation τ sig (Elt F)) :
    after ops V (main_arg5 : DevRef τ sig) = V (main_arg5 : DevRef τ sig) := by
  after_results_simp

attribute [local irreducible] Host.reduceAdd Host.gather in
set_option maxRecDepth 8192 in
set_option maxHeartbeats 4000000 in
theorem arg6_eq (V : Valuation τ sig (Elt F)) :
    after ops V (main_arg6 : DevRef τ sig) = V (main_arg6 : DevRef τ sig) := by
  after_results_simp

attribute [local irreducible] Host.reduceAdd Host.gather in
set_option maxRecDepth 8192 in
set_option maxHeartbeats 4000000 in
theorem arg7_eq (V : Valuation τ sig (Elt F)) :
    after ops V (main_arg7 : DevRef τ sig) = V (main_arg7 : DevRef τ sig) := by
  after_results_simp

attribute [local irreducible] Host.reduceAdd Host.gather in
set_option maxRecDepth 8192 in
set_option maxHeartbeats 4000000 in
theorem arg8_eq (V : Valuation τ sig (Elt F)) :
    after ops V (main_arg8 : DevRef τ sig) = V (main_arg8 : DevRef τ sig) := by
  after_results_simp

end Cert.ReferenceIdeal.RefValue

end
-- ==== Proof.RefRead.lean ====
/-
  The reference's result read index by index, over the extended reals: at edge `e` the composed term is the
  specification's score `outR`.  One small lemma per operation, each over variable operands: the gathers read the
  clamped table row, the concatenation reads the student row then the edge features, a plain product is the sum over
  the contracted coordinate, the bias broadcasts read the bias at the lane, the two activations are pointwise, the row
  sum is the initial value plus the sum over the 64 lanes, and the column form reads the vector at the row.
-/
import proofs.«137231_j76209899701047_2_alg».proof.Proof.RefTerm
import proofs.«137231_j76209899701047_2_alg».proof.Proof.Spec
import proofs.«137231_j76209899701047_2_alg».proof.Proof.LibRowGather
import proofs.«137231_j76209899701047_2_alg».proof.Proof.LibPlainDot
import Idealize.ShloMosaic.Lib.Pipeline.Value
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx

/-! ## Pointwise operations -/

/-- `elu`'s spelling at an index is the scalar function of the element. -/
theorem eluV_apply (x : FVec Ideal S1000000x64 .f32) (i : S1000000x64.Idx) : eluV x i = Cert.Spec.eluR (x i) := rfl

/-- `softplus`'s spelling at an index is the scalar function of the element. -/
theorem spV_apply (z : FVec Ideal S1000000x64 .f32) (i : S1000000x64.Idx) : spV z i = Cert.Spec.spS (z i) := rfl

/-! ## Layout operations -/

/-- A bias `[64]` broadcast to `[1, 64]` and then over the rows reads, at `(e, j)`, the bias at `j`. -/
theorem biasRows_apply (b : FVec Ideal S64 .f32) (e : Fin 1000000) (j : Fin 64) : biasRows b (ix2 e j) = b (ix1 j) := by
  unfold biasRows
  refine (broadcastInDim_apply (s := S1x64) (t := S1000000x64) ![0, 1] bcast_S1x64_S1000000x64_0_1 _ (ix2 e j)
    (ix2 (0 : Fin 1) j) fun a => ?_).trans ?_
  · match a with
    | ⟨0, _⟩ => rfl
    | ⟨1, _⟩ => rfl
  · refine broadcastInDim_apply (s := S64) (t := S1x64) ![1] bcast_S64_S1x64_1 b (ix2 (0 : Fin 1) j) (ix1 j) fun a => ?_
    match a with
    | ⟨0, _⟩ => rfl

/-- A vector `[1000000]` as a column `[1000000, 1]` reads, at `(e, u)`, the vector at `e`. -/
theorem col_apply {α : Type} (v : S1000000.Idx → α) (e : Fin 1000000) (u : Fin 1) :
    broadcastInDim S1000000x1 ![0] bcast_S1000000_S1000000x1_0 v (ix2 e u) = v (ix1 e) :=
  broadcastInDim_apply (s := S1000000) (t := S1000000x1) ![0] bcast_S1000000_S1000000x1_0 v (ix2 e u) (ix1 e) fun a => by
    match a with
    | ⟨0, _⟩ => rfl

/-- The concatenation along the lanes reads the first piece's row below 128 and the second's from there on. -/
theorem cat_apply (g : FVec Ideal S1000000x128 .f32) (a3 : FVec Ideal S1000000x32 .f32) (e : Fin 1000000) (k : Fin 160) :
    concatenate S1000000x160 1 [⟨S1000000x128, g⟩, ⟨S1000000x32, a3⟩] concatenates_S1000000x128_S1000000x32_S1000000x160_d1 (ix2 e k)
      = Cert.Spec.catRow (fun k' => g (ix2 e k')) (fun k' => a3 (ix2 e k')) k := by
  unfold Cert.Spec.catRow
  split
  · next h =>
    exact concatenate_pair_apply_left (t := S1000000x160) (s₁ := S1000000x128) (s₂ := S1000000x32) 1 g a3 _ (ix2 e k) rfl
      (ix2 e (⟨k.val, h⟩ : Fin 128)) fun b => by
        match b with
        | ⟨0, _⟩ => rfl
        | ⟨1, _⟩ => rfl
  · next h =>
    exact concatenate_pair_apply_right (t := S1000000x160) (s₁ := S1000000x128) (s₂ := S1000000x32) 1 g a3 _ (ix2 e k) rfl rfl
      (ix2 e (⟨k.val - 128, by omega⟩ : Fin 32))
      (fun b hb => by
        match b, hb with
        | ⟨0, _⟩, _ => rfl
        | ⟨1, _⟩, hb => exact absurd (Fin.ext rfl) hb)
      (by show k.val - 128 + 128 = k.val; omega)

/-! ## Gathers, products, the row sum -/

/-- The gather of student rows reads the table at the clamped row the edge selects. -/
theorem gather0_apply (a0 : FVec Ideal S100000x128 .f32) (J0 : IVec S1000000x1 32) (e : Fin 1000000) (k : Fin 128) :
    Host.gather gather_S100000x128_S1000000x1_S1000000x128_1_0_n_n_0_1_1128 a0 J0 (ix2 e k) = a0 (ix2 (Cert.Spec.row0 J0 e) k) :=
  Cert.Lib.gather_rows_apply (N := 100000) (C := 128) (E := 1000000) (by decide)
    gather_S100000x128_S1000000x1_S1000000x128_1_0_n_n_0_1_1128_wf a0 J0 e k

/-- The gather of item rows likewise. -/
theorem gather1_apply (a1 : FVec Ideal S20000x128 .f32) (J1 : IVec S1000000x1 32) (e : Fin 1000000) (k : Fin 128) :
    Host.gather gather_S20000x128_S1000000x1_S1000000x128_1_0_n_n_0_1_1128 a1 J1 (ix2 e k) = a1 (ix2 (Cert.Spec.row1 J1 e) k) :=
  Cert.Lib.gather_rows_apply (N := 20000) (C := 128) (E := 1000000) (by decide)
    gather_S20000x128_S1000000x1_S1000000x128_1_0_n_n_0_1_1128_wf a1 J1 e k

/-- The gather of item offsets: rows of one element. -/
theorem gather4_apply (a4 : FVec Ideal S20000x1 .f32) (J1 : IVec S1000000x1 32) (e : Fin 1000000) :
    Host.gather gather_S20000x1_S1000000x1_S1000000x1_1_0_n_n_0_1_11 a4 J1 (ix2 e (0 : Fin 1))
      = a4 (ix2 (Cert.Spec.row1 J1 e) (0 : Fin 1)) :=
  Cert.Lib.gather_rows_apply (N := 20000) (C := 1) (E := 1000000) (by decide)
    gather_S20000x1_S1000000x1_S1000000x1_1_0_n_n_0_1_11_wf a4 J1 e 0

/-- The product with `W1` at `(e, j)`: the sum over the 160 contracted coordinates. -/
theorem dot160_apply (l : FVec Ideal S1000000x160 .f32) (r : FVec Ideal S160x64 .f32) (e : Fin 1000000) (j : Fin 64) :
    Host.dotGeneral dot_S1000000x160_S160x64_S1000000x64_1_0_0_1_n_n none l r (ix2 e j)
      = ∑ k : Fin 160, l (ix2 e k) * r (ix2 k j) :=
  Cert.Lib.dotGeneral_plain_apply (M := 1000000) (K := 160) (N := 64) none .single l r e j

/-- The product with `W2` at `(e, j)`: the sum over the 128 contracted coordinates. -/
theorem dot128_apply (l : FVec Ideal S1000000x128 .f32) (r : FVec Ideal S128x64 .f32) (e : Fin 1000000) (j : Fin 64) :
    Host.dotGeneral dot_S1000000x128_S128x64_S1000000x64_1_0_0_1_n_n none l r (ix2 e j)
      = ∑ k : Fin 128, l (ix2 e k) * r (ix2 k j) :=
  Cert.Lib.dotGeneral_plain_apply (M := 1000000) (K := 128) (N := 64) none .single l r e j

/-- The row sum at `e`: the initial value plus the sum over the 64 lanes. -/
theorem rowSum_apply (x : FVec Ideal S1000000x64 .f32) (e : Fin 1000000) :
    Host.reduceAdd x (constant S_ .f32 0x00000000#32) reducesTo_S1000000x64_S1000000_d1 h_S_ (ix1 e)
      = Cert.Spec.zero32 + ∑ j : Fin 64, x (ix2 e j) := by
  have h : S1000000x64.Reduces [1] S1000000 := by decide
  unfold Host.reduceAdd
  refine (Ideal.hostReduceAdd_single reducesTo_S1000000x64_S1000000_d1 h x _ (ix1 e)).trans ?_
  refine congrArg (Cert.Spec.zero32 + ·) (Finset.sum_congr rfl fun k _ => congrArg x ?_)
  funext c
  match c with
  | ⟨0, _⟩ => exact Fin.ext rfl
  | ⟨1, _⟩ => exact Fin.ext rfl

/-! ## The two projections and the result -/

/-- The pre-activation at `(e, j)` is the specification's. -/
theorem lin_apply (a0 : FVec Ideal S100000x128 .f32) (J0 : IVec S1000000x1 32) (a3 : FVec Ideal S1000000x32 .f32)
    (a5 : FVec Ideal S160x64 .f32) (a6 : FVec Ideal S64 .f32) (e : Fin 1000000) (j : Fin 64) :
    lin a0 J0 a3 a5 a6 (ix2 e j) = Cert.Spec.linR a0 J0 a3 a5 a6 e j := by
  unfold lin Cert.Spec.linR
  rw [addf_apply, biasRows_apply, dot160_apply]
  refine congrArg (· + a6 (ix1 j)) (Finset.sum_congr rfl fun k _ => ?_)
  rw [cat_apply]
  refine congrArg (· * a5 (ix2 k j)) ?_
  refine congrArg (fun u => Cert.Spec.catRow u (fun k' => a3 (ix2 e k')) k) (funext fun k' => ?_)
  exact gather0_apply a0 J0 e k'

/-- The item projection at `(e, j)` is the specification's, at the item row the edge selects. -/
theorem zlin_apply (a1 : FVec Ideal S20000x128 .f32) (J1 : IVec S1000000x1 32) (a7 : FVec Ideal S128x64 .f32)
    (a8 : FVec Ideal S64 .f32) (e : Fin 1000000) (j : Fin 64) :
    zlin a1 J1 a7 a8 (ix2 e j) = Cert.Spec.zz a1 a7 a8 (Cert.Spec.row1 J1 e) j := by
  unfold zlin Cert.Spec.zz
  rw [addf_apply, biasRows_apply, dot128_apply]
  refine congrArg (· + a8 (ix1 j)) (Finset.sum_congr rfl fun k _ => ?_)
  rw [gather1_apply]

/-- The result at edge `e` is the specification's score. -/
theorem outV_apply (a0 : FVec Ideal S100000x128 .f32) (a1 : FVec Ideal S20000x128 .f32) (J0 J1 : IVec S1000000x1 32)
    (a3 : FVec Ideal S1000000x32 .f32) (a4 : FVec Ideal S20000x1 .f32) (a5 : FVec Ideal S160x64 .f32) (a6 : FVec Ideal S64 .f32)
    (a7 : FVec Ideal S128x64 .f32) (a8 : FVec Ideal S64 .f32) (e : Fin 1000000) :
    outV a0 a1 J0 J1 a3 a4 a5 a6 a7 a8 (ix2 e (0 : Fin 1)) = Cert.Spec.outR a0 a1 J0 J1 a3 a4 a5 a6 a7 a8 e := by
  unfold outV Cert.Spec.outR
  rw [addf_apply, col_apply, rowSum_apply, gather4_apply]
  refine congrArg (· + a4 (ix2 (Cert.Spec.row1 J1 e) (0 : Fin 1)))
    (congrArg (Cert.Spec.zero32 + ·) (Finset.sum_congr rfl fun j _ => ?_))
  rw [mulf_apply, eluV_apply, spV_apply, lin_apply, zlin_apply]

/-- So the result array is the specification's: an index of `[1000000, 1]` is `(e, 0)`. -/
theorem outV_eq_GR (a0 : FVec Ideal S100000x128 .f32) (a1 : FVec Ideal S20000x128 .f32) (J0 J1 : IVec S1000000x1 32)
    (a3 : FVec Ideal S1000000x32 .f32) (a4 : FVec Ideal S20000x1 .f32) (a5 : FVec Ideal S160x64 .f32) (a6 : FVec Ideal S64 .f32)
    (a7 : FVec Ideal S128x64 .f32) (a8 : FVec Ideal S64 .f32) :
    outV a0 a1 J0 J1 a3 a4 a5 a6 a7 a8 = Cert.Spec.GR a0 a1 J0 J1 a3 a4 a5 a6 a7 a8 := by
  funext i
  have hi : i = ix2 (n0 := 1000000) (n1 := 1) (i 0) 0 :=
    (eq_ix2 i).trans (congrArg (ix2 (n0 := 1000000) (n1 := 1) (i 0)) (Subsingleton.elim _ _))
  rw [hi]
  exact outV_apply a0 a1 J0 J1 a3 a4 a5 a6 a7 a8 (i 0)

end Cert.ReferenceIdeal.RefValue

end
-- ==== Proof.RefValue.lean ====
/-
  The reference's run with its result read: every weakly fair execution of @main over the extended reals terminates
  with the result buffer at the specification's array `GR` of the arguments' launch contents (the two columns of start
  indices being the printed index chains `I0`, `I1` of the edge table) and the nine arguments unchanged.
-/
import proofs.«137231_j76209899701047_2_alg».proof.Proof.RefFold
import proofs.«137231_j76209899701047_2_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxRecDepth 8192 in
/-- From any memory with zero counters, every weakly fair execution of the reference terminates with its result the
    specification's array and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41)
          = Cert.Spec.GR (m ((c.tc : Thread nD τ).loc main_arg0)) (m ((c.tc : Thread nD τ).loc main_arg1))
              (I0 (m ((c.tc : Thread nD τ).loc main_arg2))) (I1 (m ((c.tc : Thread nD τ).loc main_arg2)))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8) :=
  (θ_run defs _ _).mono
    (fun _ h c => ⟨(h c main_v41).trans ((out_eq _).trans (outV_eq_GR _ _ _ _ _ _ _ _ _ _)),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_main m ρ)

end Cert.ReferenceIdeal.RefValue

end
-- ==== Proof.lean ====
/-
  The certificate of the edge-scoring kernel against its reference, over the extended reals.

  Both programs score each of 1,000,000 edges: with `s` the student row and `i` the item row the edge's two indices select
  (negative indices wrapped, then clamped into the table, identically on both sides),

      out e = ∑ j<64, elu ([x_student s | edge_feat e] · W1 + b1) j · softplus (x_item i · W2 + b2) j  +  offset i.

  The reference gathers the raw rows and then computes; the kernel's program projects and activates the TABLES once
  (student rows by the first 128 rows of W1, item rows by W2 through softplus, the offset appended as a 65th column),
  gathers the projected rows, and a pallas_call over 250 blocks of 4000 edges adds the edge-feature part of the first
  product, applies ELU, multiplies, sums over the 64 lanes and adds the offset.  Gathering commutes with everything that
  acts row by row; a 160-term contraction is its first 128 terms plus its last 32; addition of extended reals is
  commutative and associative; the two spellings of ELU agree on the branch selected.  No product is distributed over a
  sum, so finiteness of the inputs is not used.

  The frames of the two kernel programs are the generated ones; the reference's frame is its run with the result dropped;
  the idealization rewrote nothing, so `preserves` is `True`.
-/
import proofs.«137231_j76209899701047_2_alg».proof.Defs
import proofs.«137231_j76209899701047_2_alg».proof.Proof.Gen.Kernel
import proofs.«137231_j76209899701047_2_alg».proof.Proof.Gen.Kernel.Skeleton
import proofs.«137231_j76209899701047_2_alg».proof.Proof.Gen.Kernel.Launch
import proofs.«137231_j76209899701047_2_alg».proof.Proof.Gen.Kernel.Points
import proofs.«137231_j76209899701047_2_alg».proof.Proof.Gen.Kernel.Frame
import proofs.«137231_j76209899701047_2_alg».proof.Proof.Gen.KernelIdeal
import proofs.«137231_j76209899701047_2_alg».proof.Proof.Gen.KernelIdeal.Skeleton
import proofs.«137231_j76209899701047_2_alg».proof.Proof.Gen.KernelIdeal.Launch
import proofs.«137231_j76209899701047_2_alg».proof.Proof.Gen.KernelIdeal.Points
import proofs.«137231_j76209899701047_2_alg».proof.Proof.Gen.KernelIdeal.Frame
import proofs.«137231_j76209899701047_2_alg».proof.Proof.Gen.KernelIdeal.Value
import proofs.«137231_j76209899701047_2_alg».proof.Proof.Gen.ReferenceIdeal
import proofs.«137231_j76209899701047_2_alg».proof.Proof.Gen.Pre_finite_inputs
import proofs.«137231_j76209899701047_2_alg».proof.Proof.Spec
import proofs.«137231_j76209899701047_2_alg».proof.Proof.KBlocks
import proofs.«137231_j76209899701047_2_alg».proof.Proof.KHost
import proofs.«137231_j76209899701047_2_alg».proof.Proof.RefValue
import Idealize.ShloMosaic.Adequacy
import Idealize.ShloMosaic.Init

noncomputable section

namespace Cert.Proof

open Idealize.ShloMosaic Idealize.ShloMosaic.TcCoe Idealize.SL.Sem

/-- What the kernel program's three host-computed arrays hold, index by index. -/
theorem hostReads : Cert.KernelIdeal.KValue.HostReads Cert.KernelIdeal.KHost.I0 Cert.KernelIdeal.KHost.I1 :=
  ⟨Cert.KernelIdeal.KHost.V_v20_apply, Cert.KernelIdeal.KHost.V_v27_apply_lt,
    Cert.KernelIdeal.KHost.V_v27_apply_last, Cert.KernelIdeal.KHost.V_v5_apply⟩

/-- The two programs compute the start-index arrays by the same operations of the edge-index argument. -/
theorem I0_eq (a2 : IVec ⟨2, ![2, 1000000]⟩ 32) :
    Cert.ReferenceIdeal.RefValue.I0 a2 = Cert.KernelIdeal.KHost.I0 a2 := rfl
theorem I1_eq (a2 : IVec ⟨2, ![2, 1000000]⟩ 32) :
    Cert.ReferenceIdeal.RefValue.I1 a2 = Cert.KernelIdeal.KHost.I1 a2 := rfl

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- The kernel program's result array ends at the specification's `GK` of the arguments, the reference's at `GR` of
    arguments that agree: one function. -/
theorem algebraic : Cert.algebraic_KernelIdeal_ReferenceIdeal := by
  intro m ρ m' ρ' _ hagree
  refine ⟨fun c => Cert.KernelIdeal.KValue.Gm m Cert.KernelIdeal.KHost.I0 Cert.KernelIdeal.KHost.I1 c,
    Cert.KernelIdeal.KValue.run m ρ Cert.KernelIdeal.KHost.I0 Cert.KernelIdeal.KHost.I1 hostReads, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8⟩ := hagree c
  rw [e0, e1, e2, e3, e4, e5, e6, e7, e8, I0_eq, I1_eq]
  exact Cert.Spec.GR_eq_GK _ _ _ _ _ _ _ _ _ _

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
